-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  main_v53

def fn_part2 {F : FTy → Type} [FloatOps F] (main_arg9 : FVec F S128x128 .f32) (main_arg10 : FVec F S128x3 .f32) (main_arg11 : FVec F S3 .f32) (main_arg12 : FVec F S128x3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x3 .f32 := Host.absf main_arg10
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S128x3 .f32 := Host.absf main_arg12
  let main_cst_18 : FVec F S_ .f32 := constant S_ .f32 0x7F800000#32
  let main_v50 : FVec F S128x3 .f32 := broadcastInDim S128x3 ![] bcast_S_S128x3 main_cst_18
  fn_part3 (F := F) main_v48 main_v49 main_v50

def fn_part1 {F : FTy → Type} [FloatOps F] (main_arg6 : FVec F S2x128 .f32) (main_arg7 : FVec F S128x128 .f32) (main_arg8 : FVec F S128 .f32) (main_arg9 : FVec F S128x128 .f32) (main_arg10 : FVec F S128x3 .f32) (main_arg11 : FVec F S3 .f32) (main_arg12 : FVec F S128x3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x2 .f32) (main_arg1 : IVec S2x1600000 32) (main_arg2 : FVec F S1600000 .f32) (main_arg3 : IVec S100000 32) (main_arg4 : FVec F S2x128 .f32) (main_arg5 : FVec F S128 .f32) (main_arg6 : FVec F S2x128 .f32) (main_arg7 : FVec F S128x128 .f32) (main_arg8 : FVec F S128 .f32) (main_arg9 : FVec F S128x128 .f32) (main_arg10 : FVec F S128x3 .f32) (main_arg11 : FVec F S3 .f32) (main_arg12 : FVec F S128x3 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S_ : Shape := ⟨0, ![]⟩
abbrev S1600000x1 : Shape := ⟨2, ![1600000, 1]⟩
abbrev S1600000x2 : Shape := ⟨2, ![1600000, 2]⟩
abbrev S1x128 : Shape := ⟨2, ![1, 128]⟩
abbrev S100000x128 : Shape := ⟨2, ![100000, 128]⟩
abbrev S5000x2 : Shape := ⟨2, ![5000, 2]⟩
abbrev S5000x128 : Shape := ⟨2, ![5000, 128]⟩
abbrev S1600000x128 : Shape := ⟨2, ![1600000, 128]⟩
abbrev S100000x3 : Shape := ⟨2, ![100000, 3]⟩
abbrev S5000x3 : Shape := ⟨2, ![5000, 3]⟩
abbrev S1600000x3 : Shape := ⟨2, ![1600000, 3]⟩
abbrev S1x3 : Shape := ⟨2, ![1, 3]⟩

abbrev nBuf : Space → Nat
  | .hbm => 73
  | .vmem => 31
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S2x128, .f32⟩
  | .hbm, ⟨5, _⟩ => ⟨S128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x3, .f32⟩
  | .hbm, ⟨11, _⟩ => ⟨S3, .f32⟩
  | .hbm, ⟨12, _⟩ => ⟨S128x3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x2, .f32⟩
  | .hbm, ⟨28, _⟩ => ⟨S1600000x2, .f32⟩
  | .hbm, ⟨29, _⟩ => ⟨S_, .f32⟩
  | .hbm, ⟨30, _⟩ => ⟨S100000x2, .f32⟩
  | .hbm, ⟨31, _⟩ => ⟨S1600000x1, .i32⟩
  | .hbm, ⟨32, _⟩ => ⟨S100000x2, .f32⟩
  | .hbm, ⟨33, _⟩ => ⟨S1x128, .f32⟩
  | .hbm, ⟨34, _⟩ => ⟨S100000x128, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .bf16⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .bf16⟩
  | .hbm, ⟨54, _⟩ => ⟨S100000x3, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x3, .f32⟩
  | .hbm, ⟨64, _⟩ => ⟨S1600000x1, .f32⟩
  | .hbm, ⟨65, _⟩ => ⟨S1600000x3, .f32⟩
  | .hbm, ⟨66, _⟩ => ⟨S1600000x3, .f32⟩
  | .hbm, ⟨67, _⟩ => ⟨S_, .f32⟩
  | .hbm, ⟨68, _⟩ => ⟨S100000x3, .f32⟩
  | .hbm, ⟨69, _⟩ => ⟨S1600000x1, .i32⟩
  | .hbm, ⟨70, _⟩ => ⟨S100000x3, .f32⟩
  | .hbm, ⟨71, _⟩ => ⟨S1x3, .f32⟩
  | .hbm, ⟨72, _⟩ => ⟨S100000x3, .f32⟩
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x128, .f32⟩
  | .local _ .vmem, ⟨5, _⟩ => ⟨S1x128, .f32⟩
  | .local _ .vmem, ⟨6, _⟩ => ⟨S2x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S128x3, .f32⟩
  | .local _ .vmem, ⟨21, _⟩ => ⟨S5000x3, .f32⟩
  | .local _ .vmem, ⟨22, _⟩ => ⟨S5000x3, .f32⟩
  | .local _ .vmem, ⟨23, _⟩ => ⟨S5000x3, .f32⟩
  | .local _ .vmem, ⟨24, _⟩ => ⟨S5000x3, .f32⟩
  | .local _ .vmem, ⟨25, _⟩ => ⟨S5000x128, .bf16⟩
  | .local _ .vmem, ⟨26, _⟩ => ⟨S5000x128, .bf16⟩
  | .local _ .vmem, ⟨27, _⟩ => ⟨S1x3, .f32⟩
  | .local _ .vmem, ⟨28, _⟩ => ⟨S128x3, .f32⟩
  | .local _ .vmem, ⟨29, _⟩ => ⟨S5000x3, .f32⟩
  | .local _ .vmem, ⟨30, _⟩ => ⟨S5000x3, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x3 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S128_S1x128 : S128.ShapeCasts S1x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  shapeCasts_S3_S1x3 : S3.ShapeCasts S1x3
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S5000x2_S2x128_S5000x128_1_0_0_1_n_n_wf : DotDims.WF S5000x2 S2x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x3.size a ≤ S128x3.size a
  hwx2_1 : ∀ i : grid2.Coords, EltTy.bits .f32 = 32 ∨ (Rect.block (s := S128x3) S128x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S100000x3.size a
  hwx2_2 : ∀ i : grid2.Coords, EltTy.bits .f32 = 32 ∨ (Rect.block (s := S100000x3) S5000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x3.size a ≤ S100000x3.size a
  hwx3_0 : ∀ i : grid3.Coords, EltTy.bits .f32 = 32 ∨ (Rect.block (s := S100000x3) S5000x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .bf16 = 32 ∨ (Rect.block (s := S100000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x3.size a ≤ S128x3.size a
  hwx3_3 : ∀ i : grid3.Coords, EltTy.bits .f32 = 32 ∨ (Rect.block (s := S128x3) S128x3.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x3.size a ≤ S100000x3.size a
  hwx3_4 : ∀ i : grid3.Coords, EltTy.bits .f32 = 32 ∨ (Rect.block (s := S100000x3) S5000x3.size (cc3_transform_4 i) (hinb3_4 i)).WholeWords (EltTy.packing .f32)

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

abbrev win0_0 : Pipeline.Window sig grid0 :=
  Pipeline.Window.ofSpec (Memref.whole main_v16) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S5000x3.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S_ : Shape := ⟨0, ![]⟩
abbrev S1600000x1 : Shape := ⟨2, ![1600000, 1]⟩
abbrev S1600000x2 : Shape := ⟨2, ![1600000, 2]⟩
abbrev S100000x128 : Shape := ⟨2, ![100000, 128]⟩
abbrev S1x128 : Shape := ⟨2, ![1, 128]⟩
abbrev S1600000x128 : Shape := ⟨2, ![1600000, 128]⟩
abbrev S100000x3 : Shape := ⟨2, ![100000, 3]⟩
abbrev S1x3 : Shape := ⟨2, ![1, 3]⟩

abbrev nBuf : Space → Nat
  | .hbm => 89
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S2x128, .f32⟩
  | .hbm, ⟨5, _⟩ => ⟨S128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x3, .f32⟩
  | .hbm, ⟨11, _⟩ => ⟨S3, .f32⟩
  | .hbm, ⟨12, _⟩ => ⟨S128x3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x2, .f32⟩
  | .hbm, ⟨28, _⟩ => ⟨S1600000x2, .f32⟩
  | .hbm, ⟨29, _⟩ => ⟨S_, .f32⟩
  | .hbm, ⟨30, _⟩ => ⟨S100000x2, .f32⟩
  | .hbm, ⟨31, _⟩ => ⟨S1600000x1, .i32⟩
  | .hbm, ⟨32, _⟩ => ⟨S100000x2, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x3, .f32⟩
  | .hbm, ⟨84, _⟩ => ⟨S1x3, .f32⟩
  | .hbm, ⟨85, _⟩ => ⟨S100000x3, .f32⟩
  | .hbm, ⟨86, _⟩ => ⟨S100000x3, .f32⟩
  | .hbm, ⟨87, _⟩ => ⟨S100000x3, .f32⟩
  | .hbm, ⟨88, _⟩ => ⟨S100000x3, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_c_4 : Ref sig .tc := ⟨.hbm, 67, rfl⟩
abbrev main_v44 : Ref sig .tc := ⟨.hbm, 68, rfl⟩
abbrev main_v45 : Ref sig .tc := ⟨.hbm, 69, rfl⟩
abbrev main_c_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S100000x2_S2x128_S100000x128_1_0_0_1_n_n_wf : DotDims.WF S100000x2 S2x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.RunResult.lean ====
/-
  The idealized kernel's run with its result array named.

  Every weakly fair execution of the program terminates without a fault, the thirteen argument arrays end as they were
  launched, and the result array ends at the last segment boundary's contents of its buffer: what the fourth region's
  write-backs leave there. The contents at the boundaries are a fold through the program — a stretch of host operations
  applies them in order, a region replaces each of its arrays by what its pipeline leaves — so the result is a term over
  the launch memory, opened in the modules that follow.
-/
import proofs.«106510_j32693291057797_2_alg».proof.Proof.PatchedKernelIdealFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the program's segments, the last thread state read against the final state: the result buffer at the
    last boundary's contents, each argument walked back through the fold to the launch memory. -/
theorem run_result : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.Gen

end
-- ==== Proof.Spec.lean ====
/-
  A three-layer weighted graph convolution, index by index, over the extended reals.

  One layer sends node features `h` to `relu (A h · W_rel + b + h · W_root)`, where the aggregation `A` adds to
  node `n` the rows `h (s e)` of the source nodes of the edges `e` that end in `n`, each scaled by the edge's weight.
  The last layer has no relu, and there are two ways to compute it: aggregate the 128 channels and then project
  them to the three outputs, or project first and aggregate three channels. Aggregation is linear, so the two
  agree — over the reals. On the extended reals a product does not distribute over a sum at infinities, so the
  identity is proved for real-valued arrays, and every array that reaches the last layer is shown to be
  real-valued when the inputs are.
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- A matrix of extended reals. -/
abbrev A2 (a b : ℕ) := (⟨2, ![a, b]⟩ : Shape).Idx → EReal
/-- A vector of extended reals. -/
abbrev A1 (a : ℕ) := (⟨1, ![a]⟩ : Shape).Idx → EReal
/-- One 32-bit index word per edge, as a column. -/
abbrev I2 (e : ℕ) := IVec ⟨2, ![e, 1]⟩ 32

/-- The row an edge's start-index word selects: the word read signed, clamped into the node range. -/
def srcRow {N E : ℕ} (hN : 0 < N) (si : I2 E) (e : Fin E) : Fin N :=
  ⟨min (si (ix2 e ⟨0, Nat.one_pos⟩)).toInt.toNat (N - 1), by omega⟩

/-- The edges whose target-index word, read signed, is the node `n`. -/
def inEdges {E : ℕ} (di : I2 E) (n : ℕ) : Finset (Fin E) :=
  Finset.univ.filter (fun e : Fin E => (di (ix2 e ⟨0, Nat.one_pos⟩)).toInt = (n : Int))

/-- The matrix product `h · W`. -/
def mm {n k j : ℕ} (h : A2 n k) (W : A2 k j) : A2 n j :=
  fun i => ∑ c : Fin k, h (ix2 (i 0) c) * W (ix2 c (i 1))

/-- The weighted aggregation: row `n` is zero plus the sum over the edges into `n` of the source row times the
    edge's weight. -/
def agg {N E C : ℕ} (hN : 0 < N) (si di : I2 E) (ew : A1 E) (h : A2 N C) : A2 N C :=
  fun i => 0 + ∑ e ∈ inEdges di (i 0).val, h (ix2 (srcRow hN si e) (i 1)) * ew (ix1 e)

/-- One layer with its relu: `max ((a · W_rel + b) + x · W_root) 0`. -/
def dense {n k j : ℕ} (a x : A2 n k) (Wr : A2 k j) (b : A1 j) (Wo : A2 k j) : A2 n j :=
  fun i => max ((mm a Wr i + b (ix1 (i 1))) + mm x Wo i) 0

/-- The last layer from an already projected aggregate `p`: `(p + b) + x · W_root`. -/
def last {n k j : ℕ} (p : A2 n j) (x : A2 n k) (b : A1 j) (Wo : A2 k j) : A2 n j :=
  fun i => (p i + b (ix1 (i 1))) + mm x Wo i

theorem mm_ix2 {n k j : ℕ} (h : A2 n k) (W : A2 k j) (p : Fin n) (q : Fin j) :
    mm h W (ix2 p q) = ∑ c : Fin k, h (ix2 p c) * W (ix2 c q) := rfl

theorem agg_ix2 {N E C : ℕ} (hN : 0 < N) (si di : I2 E) (ew : A1 E) (h : A2 N C) (p : Fin N) (q : Fin C) :
    agg hN si di ew h (ix2 p q) = 0 + ∑ e ∈ inEdges di p.val, h (ix2 (srcRow hN si e) q) * ew (ix1 e) := rfl

theorem dense_ix2 {n k j : ℕ} (a x : A2 n k) (Wr : A2 k j) (b : A1 j) (Wo : A2 k j) (p : Fin n) (q : Fin j) :
    dense a x Wr b Wo (ix2 p q) = max ((mm a Wr (ix2 p q) + b (ix1 q)) + mm x Wo (ix2 p q)) 0 := rfl

theorem last_ix2 {n k j : ℕ} (p' : A2 n j) (x : A2 n k) (b : A1 j) (Wo : A2 k j) (p : Fin n) (q : Fin j) :
    last p' x b Wo (ix2 p q) = (p' (ix2 p q) + b (ix1 q)) + mm x Wo (ix2 p q) := rfl

/-! ## Real-valued arrays -/

/-- Every entry is a real number. -/
def IsReal {α : Type} (f : α → EReal) : Prop := ∀ i, ∃ r : ℝ, f i = (r : EReal)

/-- The coercion of the reals into the extended reals carries a finite sum to the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A real-valued array is the coercion of an array of reals. -/
theorem IsReal.exists_eq {α : Type} {f : α → EReal} (hf : IsReal f) : ∃ g : α → ℝ, f = fun i => (g i : EReal) := by
  choose g hg using hf
  exact ⟨g, funext hg⟩

theorem isReal_coe {α : Type} (g : α → ℝ) : IsReal (fun i => (g i : EReal)) := fun i => ⟨g i, rfl⟩

theorem mm_real {n k j : ℕ} {h : A2 n k} {W : A2 k j} (hh : IsReal h) (hW : IsReal W) : IsReal (mm h W) := by
  obtain ⟨h', rfl⟩ := hh.exists_eq
  obtain ⟨W', rfl⟩ := hW.exists_eq
  intro i
  refine ⟨∑ c : Fin k, h' (ix2 (i 0) c) * W' (ix2 c (i 1)), ?_⟩
  simp only [mm, ← EReal.coe_mul, ← coe_sum]

theorem agg_real {N E C : ℕ} (hN : 0 < N) (si di : I2 E) {ew : A1 E} {h : A2 N C} (he : IsReal ew) (hh : IsReal h) :
    IsReal (agg hN si di ew h) := by
  obtain ⟨h', rfl⟩ := hh.exists_eq
  obtain ⟨w', rfl⟩ := he.exists_eq
  intro i
  refine ⟨∑ e ∈ inEdges di (i 0).val, h' (ix2 (srcRow hN si e) (i 1)) * w' (ix1 e), ?_⟩
  simp only [agg, zero_add, ← EReal.coe_mul, ← coe_sum]

theorem dense_real {n k j : ℕ} {a x : A2 n k} {Wr : A2 k j} {b : A1 j} {Wo : A2 k j}
    (ha : IsReal a) (hx : IsReal x) (hWr : IsReal Wr) (hb : IsReal b) (hWo : IsReal Wo) :
    IsReal (dense a x Wr b Wo) := by
  intro i
  obtain ⟨r1, e1⟩ := mm_real ha hWr i
  obtain ⟨r2, e2⟩ := hb (ix1 (i 1))
  obtain ⟨r3, e3⟩ := mm_real hx hWo i
  refine ⟨max ((r1 + r2) + r3) 0, ?_⟩
  have hmax : ∀ u v : ℝ, max (u : EReal) (v : EReal) = ((max u v : ℝ) : EReal) := fun u v =>
    (Monotone.map_max (fun _ _ h => EReal.coe_le_coe_iff.2 h)).symm
  show max ((mm a Wr i + b (ix1 (i 1))) + mm x Wo i) 0 = _
  rw [e1, e2, e3, ← EReal.coe_add, ← EReal.coe_add, ← EReal.coe_zero, hmax]

/-! ## Projection and aggregation commute -/

/-- For real-valued features, edge weights and projection weights, projecting the aggregated rows is aggregating
    the projected rows. -/
theorem mm_agg {N E C J : ℕ} (hN : 0 < N) (si di : I2 E) {ew : A1 E} {h : A2 N C} {W : A2 C J}
    (he : IsReal ew) (hh : IsReal h) (hW : IsReal W) :
    mm (agg hN si di ew h) W = agg hN si di ew (mm h W) := by
  obtain ⟨h', rfl⟩ := hh.exists_eq
  obtain ⟨w', rfl⟩ := he.exists_eq
  obtain ⟨W', rfl⟩ := hW.exists_eq
  funext i
  have hreal : (∑ c : Fin C, (∑ e ∈ inEdges di (i 0).val, h' (ix2 (srcRow hN si e) c) * w' (ix1 e)) * W' (ix2 c (i 1)))
      = ∑ e ∈ inEdges di (i 0).val, (∑ c : Fin C, h' (ix2 (srcRow hN si e) c) * W' (ix2 c (i 1))) * w' (ix1 e) := by
    simp only [Finset.sum_mul]
    rw [Finset.sum_comm]
    exact Finset.sum_congr rfl fun e _ => Finset.sum_congr rfl fun c _ => by ring
  show (∑ c : Fin C, (0 + ∑ e ∈ inEdges di (i 0).val, ((h' (ix2 (srcRow hN si e) c) : ℝ) : EReal) * ((w' (ix1 e) : ℝ) : EReal)) * ((W' (ix2 c (i 1)) : ℝ) : EReal))
      = 0 + ∑ e ∈ inEdges di (i 0).val, (∑ c : Fin C, ((h' (ix2 (srcRow hN si e) c) : ℝ) : EReal) * ((W' (ix2 c (i 1)) : ℝ) : EReal)) * ((w' (ix1 e) : ℝ) : EReal)
  simp only [zero_add, ← EReal.coe_mul, ← coe_sum]
  rw [hreal]

/-! ## The two networks -/

section Net

variable {N E : ℕ} (hN : 0 < N) (si di : I2 E) (ew : A1 E) (x : A2 N 2)
  (W1r : A2 2 128) (b1 : A1 128) (W1o : A2 2 128)
  (W2r : A2 128 128) (b2 : A1 128) (W2o : A2 128 128)
  (W3r : A2 128 3) (b3 : A1 3) (W3o : A2 128 3)

/-- The first hidden layer. -/
def hidden1 : A2 N 128 := dense (agg hN si di ew x) x W1r b1 W1o
/-- The second hidden layer. -/
def hidden2 : A2 N 128 :=
  dense (agg hN si di ew (hidden1 hN si di ew x W1r b1 W1o)) (hidden1 hN si di ew x W1r b1 W1o) W2r b2 W2o

/-- The output computed by projecting first and aggregating three channels. -/
def outProjectFirst : A2 N 3 :=
  last (agg hN si di ew (mm (hidden2 hN si di ew x W1r b1 W1o W2r b2 W2o) W3r))
    (hidden2 hN si di ew x W1r b1 W1o W2r b2 W2o) b3 W3o

/-- The output computed by aggregating 128 channels and projecting afterwards. -/
def outAggregateFirst : A2 N 3 :=
  last (mm (agg hN si di ew (hidden2 hN si di ew x W1r b1 W1o W2r b2 W2o)) W3r)
    (hidden2 hN si di ew x W1r b1 W1o W2r b2 W2o) b3 W3o

variable {ew x W1r b1 W1o W2r b2 W2o W3r}

theorem hidden1_real (he : IsReal ew) (hx : IsReal x) (h1r : IsReal W1r) (hb1 : IsReal b1) (h1o : IsReal W1o) :
    IsReal (hidden1 hN si di ew x W1r b1 W1o) :=
  dense_real (agg_real hN si di he hx) hx h1r hb1 h1o

theorem hidden2_real (he : IsReal ew) (hx : IsReal x) (h1r : IsReal W1r) (hb1 : IsReal b1) (h1o : IsReal W1o)
    (h2r : IsReal W2r) (hb2 : IsReal b2) (h2o : IsReal W2o) :
    IsReal (hidden2 hN si di ew x W1r b1 W1o W2r b2 W2o) :=
  dense_real (agg_real hN si di he (hidden1_real hN si di he hx h1r hb1 h1o)) (hidden1_real hN si di he hx h1r hb1 h1o) h2r hb2 h2o

/-- With real inputs the two orders of the last layer give the same output. -/
theorem out_eq (he : IsReal ew) (hx : IsReal x) (h1r : IsReal W1r) (hb1 : IsReal b1) (h1o : IsReal W1o)
    (h2r : IsReal W2r) (hb2 : IsReal b2) (h2o : IsReal W2o) (h3r : IsReal W3r) :
    outProjectFirst hN si di ew x W1r b1 W1o W2r b2 W2o W3r b3 W3o
      = outAggregateFirst hN si di ew x W1r b1 W1o W2r b2 W2o W3r b3 W3o := by
  unfold outProjectFirst outAggregateFirst
  rw [mm_agg hN si di he (hidden2_real hN si di he hx h1r hb1 h1o h2r hb2 h2o) h3r]

end Net

end Cert.Gnn

end
-- ==== Proof.SpecRow.lean ====
/-
  The layers with the bias held as a one-row matrix, as the kernels load it.
-/
import proofs.«106510_j32693291057797_2_alg».proof.Proof.Spec

noncomputable section

open scoped BigOperators

namespace Cert.Gnn

open Idealize.ShloMosaic Idealize.ShloMosaic.ValueIdx

/-- One layer with its relu, the bias a one-row matrix. -/
def denseRow {n k j : ℕ} (a x : A2 n k) (Wr : A2 k j) (b : A2 1 j) (Wo : A2 k j) : A2 n j :=
  fun i => max ((mm a Wr i + b (ix2 (0 : Fin 1) (i 1))) + mm x Wo i) 0

/-- The last layer from a projected aggregate, the bias a one-row matrix. -/
def lastRow {n k j : ℕ} (p : A2 n j) (x : A2 n k) (b : A2 1 j) (Wo : A2 k j) : A2 n j :=
  fun i => (p i + b (ix2 (0 : Fin 1) (i 1))) + mm x Wo i

theorem denseRow_ix2 {n k j : ℕ} (a x : A2 n k) (Wr : A2 k j) (b : A2 1 j) (Wo : A2 k j) (p : Fin n) (q : Fin j) :
    denseRow a x Wr b Wo (ix2 p q)
      = max (((∑ c : Fin k, a (ix2 p c) * Wr (ix2 c q)) + b (ix2 (0 : Fin 1) q)) + ∑ c : Fin k, x (ix2 p c) * Wo (ix2 c q)) 0 := rfl

theorem lastRow_ix2 {n k j : ℕ} (p' : A2 n j) (x : A2 n k) (b : A2 1 j) (Wo : A2 k j) (p : Fin n) (q : Fin j) :
    lastRow p' x b Wo (ix2 p q) = (p' (ix2 p q) + b (ix2 (0 : Fin 1) q)) + ∑ c : Fin k, x (ix2 p c) * Wo (ix2 c q) := rfl

/-- A one-row bias that is the vector `b` laid out as a row gives the layer of the specification. -/
theorem denseRow_eq {n k j : ℕ} (a x : A2 n k) (Wr : A2 k j) (b2 : A2 1 j) (b : A1 j) (Wo : A2 k j)
    (hb : ∀ q : Fin j, b2 (ix2 (0 : Fin 1) q) = b (ix1 q)) : denseRow a x Wr b2 Wo = dense a x Wr b Wo := by
  funext i
  obtain ⟨p, q, rfl⟩ : ∃ (p : Fin n) (q : Fin j), i = ix2 p q := ⟨i 0, i 1, eq_ix2 i⟩
  show max ((mm a Wr (ix2 p q) + b2 (ix2 (0 : Fin 1) q)) + mm x Wo (ix2 p q)) 0 = max ((mm a Wr (ix2 p q) + b (ix1 q)) + mm x Wo (ix2 p q)) 0
  rw [hb]

theorem lastRow_eq {n k j : ℕ} (p' : A2 n j) (x : A2 n k) (b2 : A2 1 j) (b : A1 j) (Wo : A2 k j)
    (hb : ∀ q : Fin j, b2 (ix2 (0 : Fin 1) q) = b (ix1 q)) : lastRow p' x b2 Wo = last p' x b Wo := by
  funext i
  obtain ⟨p, q, rfl⟩ : ∃ (p : Fin n) (q : Fin j), i = ix2 p q := ⟨i 0, i 1, eq_ix2 i⟩
  show (p' (ix2 p q) + b2 (ix2 (0 : Fin 1) q)) + mm x Wo (ix2 p q) = (p' (ix2 p q) + b (ix1 q)) + mm x Wo (ix2 p q)
  rw [hb]

end Cert.Gnn

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«106510_j32693291057797_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.Layer1.lean ====
import proofs.«106510_j32693291057797_2_alg».proof.Proof.PatchedKernelIdealFrame
import proofs.«106510_j32693291057797_2_alg».proof.Proof.SpecRow
import proofs.«106510_j32693291057797_2_alg».proof.Proof.LibMatRows
import Idealize.ShloMosaic.Lib.Pipeline.Value
import Idealize.ShloMosaic.Lib.ValueLayout

set_option maxRecDepth 16384

noncomputable section

/-!
  The first region: twenty blocks of 5000 nodes, each block the first layer of its nodes — the aggregated block and
  the feature block against the two whole weight matrices, the bias row added, the relu — written back to rows
  `5000 t … 5000 t + 4999` of the layer's array. The twenty blocks tile the array, so it ends holding the layer of
  the arrays the region found.
-/

namespace Cert.KernelIdeal.Layer1

open Idealize.ShloMosaic Idealize.ShloMosaic.TcCoe Idealize.ShloMosaic.ValueIdx Idealize.SL.Sem
open Cert.KernelIdeal Cert.KernelIdeal.Gen
open Idealize.ShloMosaic.Pipeline (Dat Cfg Window)
open Cert.Gnn

/-- The printed record of the product is a plain rows-times-matrix contraction. -/
theorem plain : Cert.LibMatRows.RowsTimesMat dot_S5000x2_S2x128_S5000x128_1_0_0_1_n_n where
  rank := rfl
  size := rfl
  l0 := fun i q => by
    unfold DotDims.lhsIdx
    rw [dif_neg (show ¬(0 : Fin S5000x2.rank) ∈ dot_S5000x2_S2x128_S5000x128_1_0_0_1_n_n.lhsBatch by decide),
      dif_pos (show (0 : Fin S5000x2.rank) ∈ dot_S5000x2_S2x128_S5000x128_1_0_0_1_n_n.lhsNonContracting by decide)]
    rfl
  l1 := fun i q => dot_S5000x2_S2x128_S5000x128_1_0_0_1_n_n.lhsIdx_val_of_single rfl i q
  r0 := fun i q => dot_S5000x2_S2x128_S5000x128_1_0_0_1_n_n.rhsIdx_val_of_single rfl i q
  r1 := fun i q => by
    unfold DotDims.rhsIdx
    rw [dif_neg (show ¬(1 : Fin S2x128.rank) ∈ dot_S5000x2_S2x128_S5000x128_1_0_0_1_n_n.rhsBatch by decide),
      dif_pos (show (1 : Fin S2x128.rank) ∈ dot_S5000x2_S2x128_S5000x128_1_0_0_1_n_n.rhsNonContracting by decide)]
    rfl

/-- The body's stored value at row `p`, channel `q` of the block: the two products' sums, the bias row, the relu. -/
theorem pay_apply (x0 x1 : Vec Ideal S5000x2 .f32) (wr wo : Vec Ideal S2x128 .f32) (b : Vec Ideal S1x128 .f32) (p : Fin 5000) (q : Fin 128) :
    k0_pay1 (F := Ideal) x0 x1 wr wo b (ix2 p q)
      = max (((∑ k : Fin 2, x0 (ix2 p k) * wr (ix2 k q)) + b (ix2 (0 : Fin 1) q)) + ∑ k : Fin 2, x1 (ix2 p k) * wo (ix2 k q)) 0 := by
  unfold k0_pay1
  refine congrArg₂ max (congrArg₂ (· + ·) (congrArg₂ (· + ·) ?_ ?_) ?_) ?_
  · refine (Cert.LibMatRows.matmul_rows plain _ _ p q).trans ?_
    exact Finset.sum_congr rfl fun k _ => by rw [truncf_apply, truncf_apply, shapeCast_self]
  · rw [shapeCast_self]
    exact broadcastTo_1b_ab_apply b _ p q
  · refine (Cert.LibMatRows.matmul_rows plain _ _ p q).trans ?_
    exact Finset.sum_congr rfl fun k _ => by rw [truncf_apply, truncf_apply]
  · exact Ideal.ofBits_zero_f32

theorem hz : (![0, 0] : Fin 2 → Nat) = fun _ => 0 := funext fun a => by fin_cases a <;> rfl

/-- The printed index maps over the grid: the two row-tiled inputs and the output sit at block row `t`, the weights
    and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of block `t` is row `5000 t + p` of the array. -/
def row (t : Fin cfg0.N) (p : Fin 5000) : Fin 100000 := ⟨t.val * 5000 + p.val, by have := t.isLt; have h : cfg0.N = 20 := rfl; omega⟩

theorem read0 (c : Dev nD) (t : Fin cfg0.N) (p : Fin 5000) (k : Fin 2) :
    iblk0 V c 0 t (ix2 p k) = V c main_v16 (ix2 (row t p) k) := by
  obtain ⟨e00, e01, -⟩ := idx_facts t
  show V c main_v16 (((cfg0.win 0).blk t).view.emb (ix2 p k)) = V c main_v16 (ix2 (row t p) k)
  refine congrArg (V c main_v16) (funext fun a => Fin.ext ?_)
  match a with
  | ⟨0, _⟩ => show win0_0.index t (0 : Fin 2) * 5000 + 1 * p.val = t.val * 5000 + p.val; omega
  | ⟨1, _⟩ => show win0_0.index t (1 : Fin 2) * 2 + 1 * k.val = k.val; omega

theorem read1 (c : Dev nD) (t : Fin cfg0.N) (p : Fin 5000) (k : Fin 2) :
    iblk0 V c 1 t (ix2 p k) = V c main_arg0 (ix2 (row t p) k) := by
  obtain ⟨-, -, e10, e11, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 2 + 1 * k.val = k.val; omega

theorem read2 (c : Dev nD) (t : Fin cfg0.N) (k : Fin 2) (q : Fin 128) :
    iblk0 V c 2 t (ix2 k q) = V c main_arg4 (ix2 k q) := by
  obtain ⟨-, -, -, -, e20, e21, -⟩ := idx_facts t
  show V c main_arg4 (((cfg0.win 2).blk t).view.emb (ix2 k q)) = V c main_arg4 (ix2 k q)
  refine congrArg (V c main_arg4) (funext fun a => Fin.ext ?_)
  match a with
  | ⟨0, _⟩ => show win0_2.index t (0 : Fin 2) * 2 + 1 * k.val = k.val; omega
  | ⟨1, _⟩ => show win0_2.index t (1 : Fin 2) * 128 + 1 * q.val = q.val; omega

theorem read3 (c : Dev nD) (t : Fin cfg0.N) (q : Fin 128) :
    iblk0 V c 3 t (ix2 (0 : Fin 1) q) = V c main_v17 (ix2 (0 : Fin 1) q) := by
  obtain ⟨-, -, -, -, -, -, e30, e31, -⟩ := idx_facts t
  show V c main_v17 (((cfg0.win 3).blk t).view.emb (ix2 (0 : Fin 1) q)) = V c main_v17 (ix2 (0 : Fin 1) q)
  refine congrArg (V c main_v17) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem read4 (c : Dev nD) (t : Fin cfg0.N) (k : Fin 2) (q : Fin 128) :
    iblk0 V c 4 t (ix2 k q) = V c main_arg6 (ix2 k q) := by
  obtain ⟨-, -, -, -, -, -, -, -, e40, e41, -⟩ := idx_facts t
  show V c main_arg6 (((cfg0.win 4).blk t).view.emb (ix2 k q)) = V c main_arg6 (ix2 k q)
  refine congrArg (V c main_arg6) (funext fun a => Fin.ext ?_)
  match a with
  | ⟨0, _⟩ => show win0_4.index t (0 : Fin 2) * 2 + 1 * k.val = k.val; omega
  | ⟨1, _⟩ => show win0_4.index t (1 : Fin 2) * 128 + 1 * q.val = q.val; omega

theorem emb5 (t : Fin cfg0.N) (p : Fin 5000) (q : Fin 128) :
    ((cfg0.win 5).blk t).view.emb (ix2 p q) = ix2 (row t p) q := by
  obtain ⟨-, -, -, -, -, -, -, -, -, -, e50, e51⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of the layer of the arrays the region found. -/
theorem flushed_eq (c : Dev nD) (t : Fin cfg0.N) :
    (dat0 V c).flushed 5 t = ((cfg0.win 5).blk t).view.read (Elt Ideal)
      (denseRow (V c main_v16) (V c main_arg0) (V c main_arg4) (V c main_v17) (V c main_arg6)) := by
  show (cfg0.win 5).cut (grid0.coords t) ((dat0 V c).after 5 t) = _
  rw [after0_5]
  unfold out0_5
  rw [View.canon_unit_zero hz]
  simp only [View.ld_unit_zero (S := S5000x2) hz, View.ld_unit_zero (S := S2x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
    = denseRow (V c main_v16) (V c main_arg0) (V c main_arg4) (V c main_v17) (V c main_arg6) (((cfg0.win 5).blk t).view.emb (ix2 p q))
  rw [emb5 t p q, denseRow_ix2]
  refine (pay_apply _ _ _ _ _ p q).trans ?_
  simp only [read0 V c t, read1 V c t, read2 V c t, read3 V c t, read4 V c t]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- Every row of the array is in the block of the point `row / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := rfl
  refine ⟨⟨(i 0).val / 5000, by rw [hN]; omega⟩, flush0_5 _, ?_⟩
  rw [mem_blk]
  obtain ⟨-, -, -, -, -, -, -, -, -, -, e50, e51⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- THE LAYER'S ARRAY after the region: the first layer of the arrays the region found. -/
theorem array_eq (c : Dev nD) :
    (dat0 V c).arrAt 5 cfg0.N
      = denseRow (V c main_v16) (V c main_arg0) (V c main_arg4) (V c main_v17) (V c main_arg6) :=
  (dat0 V c).arrAt_eq_of_cover 5 _ (fun t _ => flushed_eq V c t) cover

end Cert.KernelIdeal.Layer1

end
-- ==== Proof.Layer2.lean ====
import proofs.«106510_j32693291057797_2_alg».proof.Proof.PatchedKernelIdealFrame
import proofs.«106510_j32693291057797_2_alg».proof.Proof.SpecRow
import proofs.«106510_j32693291057797_2_alg».proof.Proof.LibMatRows
import Idealize.ShloMosaic.Lib.Pipeline.Value
import Idealize.ShloMosaic.Lib.ValueLayout

set_option maxRecDepth 16384

noncomputable section

/-!
  The second region: twenty blocks of 5000 nodes, each block the second layer of its nodes — the aggregated block and
  the first layer's block against the two whole 128 x 128 weight matrices, the bias row added, the relu — written back
  to rows `5000 t … 5000 t + 4999` of the layer's array; the blocks tile it.
-/

namespace Cert.KernelIdeal.Layer2

open Idealize.ShloMosaic Idealize.ShloMosaic.TcCoe Idealize.ShloMosaic.ValueIdx Idealize.SL.Sem
open Cert.KernelIdeal Cert.KernelIdeal.Gen
open Idealize.ShloMosaic.Pipeline (Dat Cfg Window)
open Cert.Gnn

/-- The printed record of the product is a plain rows-times-matrix contraction. -/
theorem plain : Cert.LibMatRows.RowsTimesMat dot_S5000x128_S128x128_S5000x128_1_0_0_1_n_n where
  rank := rfl
  size := rfl
  l0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun i q => dot_S5000x128_S128x128_S5000x128_1_0_0_1_n_n.lhsIdx_val_of_single rfl i q
  r0 := fun i q => dot_S5000x128_S128x128_S5000x128_1_0_0_1_n_n.rhsIdx_val_of_single rfl i q
  r1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The body's stored value at row `p`, channel `q` of the block: the two products' sums, the bias row, the relu. -/
theorem pay_apply (x0 : Vec Ideal S5000x128 .f32) (x1 : Vec Ideal S5000x128 .bf16) (wr wo : Vec Ideal S128x128 .f32) (b : Vec Ideal S1x128 .f32) (p : Fin 5000) (q : Fin 128) :
    k1_pay1 (F := Ideal) x0 x1 wr wo b (ix2 p q)
      = max (((∑ k : Fin 128, x0 (ix2 p k) * wr (ix2 k q)) + b (ix2 (0 : Fin 1) q)) + ∑ k : Fin 128, x1 (ix2 p k) * wo (ix2 k q)) 0 := by
  unfold k1_pay1
  refine congrArg₂ max (congrArg₂ (· + ·) (congrArg₂ (· + ·) ?_ ?_) ?_) ?_
  · refine (Cert.LibMatRows.matmul_rows plain _ _ p q).trans ?_
    exact Finset.sum_congr rfl fun k _ => by rw [truncf_apply, truncf_apply, shapeCast_self]
  · rw [shapeCast_self]
    exact broadcastTo_1b_ab_apply b _ p q
  · refine (Cert.LibMatRows.matmul_rows plain _ _ p q).trans ?_
    exact Finset.sum_congr rfl fun k _ => by rw [truncf_apply, shapeCast_self]
  · exact Ideal.ofBits_zero_f32

theorem hz : (![0, 0] : Fin 2 → Nat) = fun _ => 0 := funext fun a => by fin_cases a <;> rfl

/-- The printed index maps over the grid: the row-tiled windows sit at block row `t`, the others at their one block. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

variable (V : (c : Dev nD) → (b : Ref sig .tc) → Buf (Elt Ideal) ((c : Thread nD τ).loc b))

/-- Row `p` of block `t` is row `5000 t + p` of the array. -/
def row (t : Fin cfg1.N) (p : Fin 5000) : Fin 100000 := ⟨t.val * 5000 + p.val, by have := t.isLt; have h : cfg1.N = 20 := rfl; omega⟩

theorem read0 (c : Dev nD) (t : Fin cfg1.N) (p : Fin 5000) (k : Fin 128) :
    iblk1 V c 0 t (ix2 p k) = V c main_v32 (ix2 (row t p) k) := by
  obtain ⟨ea, eb, -⟩ := idx_facts t
  show V c main_v32 (((cfg1.win 0).blk t).view.emb (ix2 p k)) = V c main_v32 (ix2 (row t p) k)
  refine congrArg (V c main_v32) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1 (c : Dev nD) (t : Fin cfg1.N) (p : Fin 5000) (k : Fin 128) :
    iblk1 V c 1 t (ix2 p k) = V c main_v18 (ix2 (row t p) k) := by
  obtain ⟨-, -, ea, eb, -⟩ := idx_facts t
  show V c main_v18 (((cfg1.win 1).blk t).view.emb (ix2 p k)) = V c main_v18 (ix2 (row t p) k)
  refine congrArg (V c main_v18) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem read2 (c : Dev nD) (t : Fin cfg1.N) (k : Fin 128) (q : Fin 128) :
    iblk1 V c 2 t (ix2 k q) = V c main_arg7 (ix2 k q) := by
  obtain ⟨-, -, -, -, ea, eb, -⟩ := idx_facts t
  show V c main_arg7 (((cfg1.win 2).blk t).view.emb (ix2 k q)) = V c main_arg7 (ix2 k q)
  refine congrArg (V c main_arg7) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read3 (c : Dev nD) (t : Fin cfg1.N) (q : Fin 128) :
    iblk1 V c 3 t (ix2 (0 : Fin 1) q) = V c main_v33 (ix2 (0 : Fin 1) q) := by
  obtain ⟨-, -, -, -, -, -, ea, eb, -⟩ := idx_facts t
  show V c main_v33 (((cfg1.win 3).blk t).view.emb (ix2 (0 : Fin 1) q)) = V c main_v33 (ix2 (0 : Fin 1) q)
  refine congrArg (V c main_v33) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem read4 (c : Dev nD) (t : Fin cfg1.N) (k : Fin 128) (q : Fin 128) :
    iblk1 V c 4 t (ix2 k q) = V c main_arg9 (ix2 k q) := by
  obtain ⟨-, -, -, -, -, -, -, -, ea, eb, -⟩ := idx_facts t
  show V c main_arg9 (((cfg1.win 4).blk t).view.emb (ix2 k q)) = V c main_arg9 (ix2 k q)
  refine congrArg (V c main_arg9) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem embOut (t : Fin cfg1.N) (p : Fin 5000) (q : Fin 128) :
    ((cfg1.win 5).blk t).view.emb (ix2 p q) = ix2 (row t p) q := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back is block `t` of the closed form of the arrays the region found. -/
theorem flushed_eq (c : Dev nD) (t : Fin cfg1.N) :
    (dat1 V c).flushed 5 t = ((cfg1.win 5).blk t).view.read (Elt Ideal)
      (denseRow (V c main_v32) (V c main_v18) (V c main_arg7) (V c main_v33) (V c main_arg9)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 4 t) (iblk1 V c 3 t) (ix2 p q)
    = (denseRow (V c main_v32) (V c main_v18) (V c main_arg7) (V c main_v33) (V c main_arg9)) (((cfg1.win 5).blk t).view.emb (ix2 p q))
  rw [embOut t p q, denseRow_ix2]
  refine (pay_apply _ _ _ _ _ p q).trans ?_
  simp only [read0 V c t, read1 V c t, read2 V c t, read3 V c t, read4 V c t]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Every row of the array is in the block of the point `row / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := rfl
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- THE REGION'S OUTPUT ARRAY after the region: the closed form of the arrays the region found. -/
theorem array_eq (c : Dev nD) :
    (dat1 V c).arrAt 5 cfg1.N
      = denseRow (V c main_v32) (V c main_v18) (V c main_arg7) (V c main_v33) (V c main_arg9) :=
  (dat1 V c).arrAt_eq_of_cover 5 _ (fun t _ => flushed_eq V c t) cover

end Cert.KernelIdeal.Layer2

end
-- ==== Proof.Project.lean ====
import proofs.«106510_j32693291057797_2_alg».proof.Proof.PatchedKernelIdealFrame
import proofs.«106510_j32693291057797_2_alg».proof.Proof.SpecRow
import proofs.«106510_j32693291057797_2_alg».proof.Proof.LibMatRows
import Idealize.ShloMosaic.Lib.Pipeline.Value
import Idealize.ShloMosaic.Lib.ValueLayout

set_option maxRecDepth 16384

noncomputable section

/-!
  The third region: twenty blocks of 5000 nodes, each block the second layer's block times the whole 128 x 3 projection
  matrix, written back to rows `5000 t … 5000 t + 4999` of the projected array; the blocks tile it.
-/

namespace Cert.KernelIdeal.Project

open Idealize.ShloMosaic Idealize.ShloMosaic.TcCoe Idealize.ShloMosaic.ValueIdx Idealize.SL.Sem
open Cert.KernelIdeal Cert.KernelIdeal.Gen
open Idealize.ShloMosaic.Pipeline (Dat Cfg Window)
open Cert.Gnn

/-- The printed record of the product is a plain rows-times-matrix contraction. -/
theorem plain : Cert.LibMatRows.RowsTimesMat dot_S5000x128_S128x3_S5000x3_1_0_0_1_n_n where
  rank := rfl
  size := rfl
  l0 := fun i q => by
    unfold DotDims.lhsIdx
    rw [dif_neg (show ¬(0 : Fin S5000x128.rank) ∈ dot_S5000x128_S128x3_S5000x3_1_0_0_1_n_n.lhsBatch by decide),
      dif_pos (show (0 : Fin S5000x128.rank) ∈ dot_S5000x128_S128x3_S5000x3_1_0_0_1_n_n.lhsNonContracting by decide)]
    rfl
  l1 := fun i q => dot_S5000x128_S128x3_S5000x3_1_0_0_1_n_n.lhsIdx_val_of_single rfl i q
  r0 := fun i q => dot_S5000x128_S128x3_S5000x3_1_0_0_1_n_n.rhsIdx_val_of_single rfl i q
  r1 := fun i q => by
    unfold DotDims.rhsIdx
    rw [dif_neg (show ¬(1 : Fin S128x3.rank) ∈ dot_S5000x128_S128x3_S5000x3_1_0_0_1_n_n.rhsBatch by decide),
      dif_pos (show (1 : Fin S128x3.rank) ∈ dot_S5000x128_S128x3_S5000x3_1_0_0_1_n_n.rhsNonContracting by decide)]
    rfl

/-- The body's stored value at row `p`, channel `q` of the block: the product's sum. -/
theorem pay_apply (x0 : Vec Ideal S5000x128 .bf16) (w : Vec Ideal S128x3 .f32) (p : Fin 5000) (q : Fin 3) :
    k2_pay1 (F := Ideal) x0 w (ix2 p q) = ∑ k : Fin 128, x0 (ix2 p k) * w (ix2 k q) := by
  unfold k2_pay1
  refine (Cert.LibMatRows.matmul_rows plain _ _ p q).trans ?_
  exact Finset.sum_congr rfl fun k _ => by rw [truncf_apply, shapeCast_self]

theorem hz : (![0, 0] : Fin 2 → Nat) = fun _ => 0 := funext fun a => by fin_cases a <;> rfl

/-- The printed index maps over the grid: the row-tiled windows sit at block row `t`, the others at their one block. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- Row `p` of block `t` is row `5000 t + p` of the array. -/
def row (t : Fin cfg2.N) (p : Fin 5000) : Fin 100000 := ⟨t.val * 5000 + p.val, by have := t.isLt; have h : cfg2.N = 20 := rfl; omega⟩

theorem read0 (c : Dev nD) (t : Fin cfg2.N) (p : Fin 5000) (k : Fin 128) :
    iblk2 V c 0 t (ix2 p k) = V c main_v34 (ix2 (row t p) k) := by
  obtain ⟨ea, eb, -⟩ := idx_facts t
  show V c main_v34 (((cfg2.win 0).blk t).view.emb (ix2 p k)) = V c main_v34 (ix2 (row t p) k)
  refine congrArg (V c main_v34) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem read1 (c : Dev nD) (t : Fin cfg2.N) (k : Fin 128) (q : Fin 3) :
    iblk2 V c 1 t (ix2 k q) = V c main_arg10 (ix2 k q) := by
  obtain ⟨-, -, ea, eb, -⟩ := idx_facts t
  show V c main_arg10 (((cfg2.win 1).blk t).view.emb (ix2 k q)) = V c main_arg10 (ix2 k q)
  refine congrArg (V c main_arg10) (funext fun a => Fin.ext ?_)
  match a with
  | ⟨0, _⟩ => show win2_1.index t (0 : Fin 2) * 128 + 1 * k.val = k.val; omega
  | ⟨1, _⟩ => show win2_1.index t (1 : Fin 2) * 3 + 1 * q.val = q.val; omega

theorem embOut (t : Fin cfg2.N) (p : Fin 5000) (q : Fin 3) :
    ((cfg2.win 2).blk t).view.emb (ix2 p q) = ix2 (row t p) q := by
  obtain ⟨-, -, -, -, e0, e1⟩ := idx_facts t
  refine funext fun a => Fin.ext ?_
  match a with
  | ⟨0, _⟩ => show win2_2.index t (0 : Fin 2) * 5000 + 1 * p.val = t.val * 5000 + p.val; omega
  | ⟨1, _⟩ => show win2_2.index t (1 : Fin 2) * 3 + 1 * q.val = q.val; omega

/-- What point `t` writes back is block `t` of the closed form of the arrays the region found. -/
theorem flushed_eq (c : Dev nD) (t : Fin cfg2.N) :
    (dat2 V c).flushed 2 t = ((cfg2.win 2).blk t).view.read (Elt Ideal)
      (mm (V c main_v34) (V c main_arg10)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x3) hz]
  funext j
  obtain ⟨p, q, rfl⟩ : ∃ (p : Fin 5000) (q : Fin 3), j = ix2 p q := ⟨j 0, j 1, eq_ix2 j⟩
  show k2_pay1 (iblk2 V c 0 t) (iblk2 V c 1 t) (ix2 p q)
    = (mm (V c main_v34) (V c main_arg10)) (((cfg2.win 2).blk t).view.emb (ix2 p q))
  rw [embOut t p q, mm_ix2]
  refine (pay_apply _ _ p q).trans ?_
  simp only [read0 V c t, read1 V c t]

/-- An index of the array is in point `t`'s block iff each coordinate is in the block's range on its axis. -/
theorem mem_blk (t : Fin cfg2.N) (i : S100000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v35).slice (win2_2.rect t)).set ↔ _
  rw [View.set_slice_whole, Rect.mem_set_unit]
  exact Iff.rfl

/-- Every row of the array is in the block of the point `row / 5000`. -/
theorem cover (i : S100000x3.Idx) : ∃ t : Fin cfg2.N, (cfg2.win 2).flush t = true ∧ i ∈ ((cfg2.win 2).blk t).view.set := by
  have hi0 : (i 0).val < 100000 := (i 0).isLt
  have hi1 : (i 1).val < 3 := (i 1).isLt
  have hN : cfg2.N = 20 := rfl
  refine ⟨⟨(i 0).val / 5000, by rw [hN]; omega⟩, flush2_2 _, ?_⟩
  rw [mem_blk]
  obtain ⟨-, -, -, -, e0, e1⟩ := idx_facts ⟨(i 0).val / 5000, by rw [hN]; omega⟩
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, _⟩ (1 : Fin 2) * 3 ≤ (i 1).val ∧ (i 1).val < win2_2.index ⟨(i 0).val / 5000, _⟩ (1 : Fin 2) * 3 + 3
    rw [e1]; omega

/-- THE REGION'S OUTPUT ARRAY after the region: the closed form of the arrays the region found. -/
theorem array_eq (c : Dev nD) :
    (dat2 V c).arrAt 2 cfg2.N
      = mm (V c main_v34) (V c main_arg10) :=
  (dat2 V c).arrAt_eq_of_cover 2 _ (fun t _ => flushed_eq V c t) cover

/-- The region never writes its first window's array back. -/
theorem noflush_0 : ∀ t : Fin cfg2.N, (cfg2.win 0).flush t = false :=
  (by decide +kernel : ∀ t : Fin grid2.N, _)

/-- The region only reads the second layer's array: it ends as the region found it. -/
theorem input_kept (c : Dev nD) : (dat2 V c).arrAt 0 cfg2.N = V c main_v34 := by
  funext i
  rw [(dat2 V c).arrAt_apply_of_forall_not_mem 0 cfg2.N i (fun t _ hf => absurd hf (by rw [noflush_0 t]; exact Bool.false_ne_true))]
  exact congrFun (A_eq2 V c 0) i

end Cert.KernelIdeal.Project

end
-- ==== Proof.Output.lean ====
import proofs.«106510_j32693291057797_2_alg».proof.Proof.PatchedKernelIdealFrame
import proofs.«106510_j32693291057797_2_alg».proof.Proof.SpecRow
import proofs.«106510_j32693291057797_2_alg».proof.Proof.LibMatRows
import Idealize.ShloMosaic.Lib.Pipeline.Value
import Idealize.ShloMosaic.Lib.ValueLayout

set_option maxRecDepth 16384

noncomputable section

/-!
  The fourth region: twenty blocks of 5000 nodes, each block the aggregated projected block plus the bias row plus the
  second layer's block times the whole 128 x 3 root matrix, written back to rows `5000 t … 5000 t + 4999` of the
  result; the blocks tile it.
-/

namespace Cert.KernelIdeal.Output

open Idealize.ShloMosaic Idealize.ShloMosaic.TcCoe Idealize.ShloMosaic.ValueIdx Idealize.SL.Sem
open Cert.KernelIdeal Cert.KernelIdeal.Gen
open Idealize.ShloMosaic.Pipeline (Dat Cfg Window)
open Cert.Gnn

/-- The printed record of the product is a plain rows-times-matrix contraction. -/
theorem plain : Cert.LibMatRows.RowsTimesMat dot_S5000x128_S128x3_S5000x3_1_0_0_1_n_n where
  rank := rfl
  size := rfl
  l0 := fun i q => by
    unfold DotDims.lhsIdx
    rw [dif_neg (show ¬(0 : Fin S5000x128.rank) ∈ dot_S5000x128_S128x3_S5000x3_1_0_0_1_n_n.lhsBatch by decide),
      dif_pos (show (0 : Fin S5000x128.rank) ∈ dot_S5000x128_S128x3_S5000x3_1_0_0_1_n_n.lhsNonContracting by decide)]
    rfl
  l1 := fun i q => dot_S5000x128_S128x3_S5000x3_1_0_0_1_n_n.lhsIdx_val_of_single rfl i q
  r0 := fun i q => dot_S5000x128_S128x3_S5000x3_1_0_0_1_n_n.rhsIdx_val_of_single rfl i q
  r1 := fun i q => by
    unfold DotDims.rhsIdx
    rw [dif_neg (show ¬(1 : Fin S128x3.rank) ∈ dot_S5000x128_S128x3_S5000x3_1_0_0_1_n_n.rhsBatch by decide),
      dif_pos (show (1 : Fin S128x3.rank) ∈ dot_S5000x128_S128x3_S5000x3_1_0_0_1_n_n.rhsNonContracting by decide)]
    rfl

/-- The body's stored value at row `p`, channel `q` of the block: the aggregate plus the bias row plus the product's sum. -/
theorem pay_apply (h : Vec Ideal S5000x128 .bf16) (w : Vec Ideal S128x3 .f32) (a : Vec Ideal S5000x3 .f32) (b : Vec Ideal S1x3 .f32) (p : Fin 5000) (q : Fin 3) :
    k3_pay1 (F := Ideal) h w a b (ix2 p q)
      = (a (ix2 p q) + b (ix2 (0 : Fin 1) q)) + ∑ k : Fin 128, h (ix2 p k) * w (ix2 k q) := by
  unfold k3_pay1
  refine congrArg₂ (· + ·) (congrArg₂ (· + ·) ?_ ?_) ?_
  · rw [shapeCast_self]
  · rw [shapeCast_self]
    exact broadcastTo_1b_ab_apply b _ p q
  · refine (Cert.LibMatRows.matmul_rows plain _ _ p q).trans ?_
    exact Finset.sum_congr rfl fun k _ => by rw [truncf_apply, shapeCast_self]

theorem hz : (![0, 0] : Fin 2 → Nat) = fun _ => 0 := funext fun a => by fin_cases a <;> rfl

/-- The printed index maps over the grid: the row-tiled windows sit at block row `t`, the others at their one block. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

variable (V : (c : Dev nD) → (b : Ref sig .tc) → Buf (Elt Ideal) ((c : Thread nD τ).loc b))

/-- Row `p` of block `t` is row `5000 t + p` of the array. -/
def row (t : Fin cfg3.N) (p : Fin 5000) : Fin 100000 := ⟨t.val * 5000 + p.val, by have := t.isLt; have h : cfg3.N = 20 := rfl; omega⟩

theorem read0 (c : Dev nD) (t : Fin cfg3.N) (p : Fin 5000) (k : Fin 3) :
    iblk3 V c 0 t (ix2 p k) = V c main_v48 (ix2 (row t p) k) := by
  obtain ⟨ea, eb, -⟩ := idx_facts t
  show V c main_v48 (((cfg3.win 0).blk t).view.emb (ix2 p k)) = V c main_v48 (ix2 (row t p) k)
  refine congrArg (V c main_v48) (funext fun a => Fin.ext ?_)
  match a with
  | ⟨0, _⟩ => show win3_0.index t (0 : Fin 2) * 5000 + 1 * p.val = t.val * 5000 + p.val; omega
  | ⟨1, _⟩ => show win3_0.index t (1 : Fin 2) * 3 + 1 * k.val = k.val; omega

theorem read1 (c : Dev nD) (t : Fin cfg3.N) (p : Fin 5000) (k : Fin 128) :
    iblk3 V c 1 t (ix2 p k) = V c main_v34 (ix2 (row t p) k) := by
  obtain ⟨-, -, ea, eb, -⟩ := idx_facts t
  show V c main_v34 (((cfg3.win 1).blk t).view.emb (ix2 p k)) = V c main_v34 (ix2 (row t p) k)
  refine congrArg (V c main_v34) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

theorem read2 (c : Dev nD) (t : Fin cfg3.N) (q : Fin 3) :
    iblk3 V c 2 t (ix2 (0 : Fin 1) q) = V c main_v49 (ix2 (0 : Fin 1) q) := by
  obtain ⟨-, -, -, -, ea, eb, -⟩ := idx_facts t
  show V c main_v49 (((cfg3.win 2).blk t).view.emb (ix2 (0 : Fin 1) q)) = V c main_v49 (ix2 (0 : Fin 1) q)
  refine congrArg (V c main_v49) (funext fun a => Fin.ext ?_)
  match a with
  | ⟨0, _⟩ => show win3_2.index t (0 : Fin 2) * 1 + 1 * 0 = 0; omega
  | ⟨1, _⟩ => show win3_2.index t (1 : Fin 2) * 3 + 1 * q.val = q.val; omega

theorem read3 (c : Dev nD) (t : Fin cfg3.N) (k : Fin 128) (q : Fin 3) :
    iblk3 V c 3 t (ix2 k q) = V c main_arg12 (ix2 k q) := by
  obtain ⟨-, -, -, -, -, -, ea, eb, -⟩ := idx_facts t
  show V c main_arg12 (((cfg3.win 3).blk t).view.emb (ix2 k q)) = V c main_arg12 (ix2 k q)
  refine congrArg (V c main_arg12) (funext fun a => Fin.ext ?_)
  match a with
  | ⟨0, _⟩ => show win3_3.index t (0 : Fin 2) * 128 + 1 * k.val = k.val; omega
  | ⟨1, _⟩ => show win3_3.index t (1 : Fin 2) * 3 + 1 * q.val = q.val; omega

theorem embOut (t : Fin cfg3.N) (p : Fin 5000) (q : Fin 3) :
    ((cfg3.win 4).blk t).view.emb (ix2 p q) = ix2 (row t p) q := by
  obtain ⟨-, -, -, -, -, -, -, -, e0, e1⟩ := idx_facts t
  refine funext fun a => Fin.ext ?_
  match a with
  | ⟨0, _⟩ => show win3_4.index t (0 : Fin 2) * 5000 + 1 * p.val = t.val * 5000 + p.val; omega
  | ⟨1, _⟩ => show win3_4.index t (1 : Fin 2) * 3 + 1 * q.val = q.val; omega

/-- What point `t` writes back is block `t` of the closed form of the arrays the region found. -/
theorem flushed_eq (c : Dev nD) (t : Fin cfg3.N) :
    (dat3 V c).flushed 4 t = ((cfg3.win 4).blk t).view.read (Elt Ideal)
      (lastRow (V c main_v48) (V c main_v34) (V c main_v49) (V c main_arg12)) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x3) hz, View.ld_unit_zero (S := S5000x3) hz, View.ld_unit_zero (S := S1x3) hz]
  funext j
  obtain ⟨p, q, rfl⟩ : ∃ (p : Fin 5000) (q : Fin 3), j = ix2 p q := ⟨j 0, j 1, eq_ix2 j⟩
  show k3_pay1 (iblk3 V c 1 t) (iblk3 V c 3 t) (iblk3 V c 0 t) (iblk3 V c 2 t) (ix2 p q)
    = (lastRow (V c main_v48) (V c main_v34) (V c main_v49) (V c main_arg12)) (((cfg3.win 4).blk t).view.emb (ix2 p q))
  rw [embOut t p q, lastRow_ix2]
  refine (pay_apply _ _ _ _ p q).trans ?_
  simp only [read0 V c t, read1 V c t, read2 V c t, read3 V c t]

/-- An index of the array is in point `t`'s block iff each coordinate is in the block's range on its axis. -/
theorem mem_blk (t : Fin cfg3.N) (i : S100000x3.Idx) :
    i ∈ ((cfg3.win 4).blk t).view.set ↔ ∀ a : Fin 2, win3_4.index t a * S5000x3.size a ≤ (i a).val ∧ (i a).val < win3_4.index t a * S5000x3.size a + S5000x3.size a := by
  show i ∈ ((View.whole main_v50).slice (win3_4.rect t)).set ↔ _
  rw [View.set_slice_whole, Rect.mem_set_unit]
  exact Iff.rfl

/-- Every row of the array is in the block of the point `row / 5000`. -/
theorem cover (i : S100000x3.Idx) : ∃ t : Fin cfg3.N, (cfg3.win 4).flush t = true ∧ i ∈ ((cfg3.win 4).blk t).view.set := by
  have hi0 : (i 0).val < 100000 := (i 0).isLt
  have hi1 : (i 1).val < 3 := (i 1).isLt
  have hN : cfg3.N = 20 := rfl
  refine ⟨⟨(i 0).val / 5000, by rw [hN]; omega⟩, flush3_4 _, ?_⟩
  rw [mem_blk]
  obtain ⟨-, -, -, -, -, -, -, -, e0, e1⟩ := idx_facts ⟨(i 0).val / 5000, by rw [hN]; omega⟩
  intro a
  match a with
  | ⟨0, _⟩ =>
    show win3_4.index ⟨(i 0).val / 5000, _⟩ (0 : Fin 2) * 5000 ≤ (i 0).val ∧ (i 0).val < win3_4.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, _⟩ (1 : Fin 2) * 3 ≤ (i 1).val ∧ (i 1).val < win3_4.index ⟨(i 0).val / 5000, _⟩ (1 : Fin 2) * 3 + 3
    rw [e1]; omega

/-- THE REGION'S OUTPUT ARRAY after the region: the closed form of the arrays the region found. -/
theorem array_eq (c : Dev nD) :
    (dat3 V c).arrAt 4 cfg3.N
      = lastRow (V c main_v48) (V c main_v34) (V c main_v49) (V c main_arg12) :=
  (dat3 V c).arrAt_eq_of_cover 4 _ (fun t _ => flushed_eq V c t) cover

end Cert.KernelIdeal.Output

end
-- ==== Proof.RegionExits.lean ====
import proofs.«106510_j32693291057797_2_alg».proof.Proof.PatchedKernelIdealFrame
import proofs.«106510_j32693291057797_2_alg».proof.Proof.SpecRow
import proofs.«106510_j32693291057797_2_alg».proof.Proof.Layer1
import proofs.«106510_j32693291057797_2_alg».proof.Proof.Layer2
import proofs.«106510_j32693291057797_2_alg».proof.Proof.Project
import proofs.«106510_j32693291057797_2_alg».proof.Proof.Output

set_option maxRecDepth 16384

noncomputable section

/-!
  The contents of the kernel's buffers at the region boundaries, one region at a time: what a region leaves in its
  output array is its closed form of what the region found in its input arrays.
-/

namespace Cert.KernelIdeal.Net

open Idealize.ShloMosaic Idealize.ShloMosaic.TcCoe Idealize.ShloMosaic.ValueIdx Idealize.SL.Sem
open Cert.KernelIdeal Cert.KernelIdeal.Gen
open Cert.Gnn

variable (m : (ℓ : Loc nD τ sig) → Buf (Elt Ideal) ℓ) (ρ : Dev nD → PrngReg) (c : Dev nD)

/-- After the first region the first layer's buffer holds the layer of the region's entry contents. -/
theorem exit0 : W2 m ρ c (Proc.devRef .tc main_v18)
    = denseRow (V1 m ρ c main_v16) (V1 m ρ c main_arg0) (V1 m ρ c main_arg4) (V1 m ρ c main_v17) (V1 m ρ c main_arg6) :=
  (W2_arr m ρ c 5).trans (Layer1.array_eq (V1 m ρ) c)

/-- After the second region the second layer's buffer holds the layer of the region's entry contents. -/
theorem exit1 : W4 m ρ c (Proc.devRef .tc main_v34)
    = denseRow (V3 m ρ c main_v32) (V3 m ρ c main_v18) (V3 m ρ c main_arg7) (V3 m ρ c main_v33) (V3 m ρ c main_arg9) :=
  (W4_arr m ρ c 5).trans (Layer2.array_eq (V3 m ρ) c)

/-- After the third region the projected buffer holds the product of the region's entry contents, -/
theorem exit2 : W5 m ρ c (Proc.devRef .tc main_v35) = mm (V4 m ρ c main_v34) (V4 m ρ c main_arg10) :=
  (W5_arr m ρ c 2).trans (Project.array_eq (V4 m ρ) c)

/-- and the second layer's buffer is as the region found it. -/
theorem exit2_kept : W5 m ρ c (Proc.devRef .tc main_v34) = V4 m ρ c main_v34 :=
  (W5_arr m ρ c 0).trans (Project.input_kept (V4 m ρ) c)

/-- After the fourth region the result buffer holds the last layer of the region's entry contents. -/
theorem exit3 : W7 m ρ c (Proc.devRef .tc main_v50)
    = lastRow (V6 m ρ c main_v48) (V6 m ρ c main_v34) (V6 m ρ c main_v49) (V6 m ρ c main_arg12) :=
  (W7_arr m ρ c 4).trans (Output.array_eq (V6 m ρ) c)

end Cert.KernelIdeal.Net

end
-- ==== Proof.LibScatterGather.lean ====
/-
  A scatter-add and a gather along the leading axis, read at one element.

  The accumulating scatter with one scatter index per update row (inserted window axis 0, the
  start index read signed and not clamped) adds to operand row `c` exactly the update rows whose
  index word, read as a signed integer, is `c`; the gather with one start index per result row
  (collapsed slice axis 0, the start index read signed and clamped into `[0, N - 1]`) reads the
  operand row at that clamped index. Both for a flat operand `[N]` and for a matrix operand
  `[N, C]` whose second axis is carried along unchanged.
-/
import Idealize.ShloMosaic.PureOps.Ideal
import Idealize.ShloMosaic.PureOps.Ideal.Laws
import Idealize.ShloMosaic.Lib.ValueIdx

noncomputable section

open scoped BigOperators

namespace Cert.ScatterGather

open Idealize.ShloMosaic Idealize.ShloMosaic.ValueIdx

/-- A scatter-add into a flat array `[N]` with one index per update: element `c` of the result is the
    operand's element `c` plus the sum of the updates `e` whose index word, read signed, equals `c`. -/
theorem scatterAdd1_apply {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (c : Fin N) :
    Ideal.hostScatterAdd d x idx upd (ix1 c)
      = x (ix1 c) + ∑ e ∈ Finset.univ.filter
          (fun e : Fin E => (idx (ix2 e ⟨0, Nat.one_pos⟩)).toInt = (c.val : Int)), upd (ix1 e) := by
  obtain ⟨uw, iw, sd, iv, wf⟩ := d
  dsimp only at huw hiw hsd hiv
  subst huw hiw hsd hiv
  unfold Ideal.hostScatterAdd
  congr 1
  have hsz : ((⟨1, ![N]⟩ : Shape).size 0 : Nat) = N := rfl
  have key : ∀ e : Fin E,
      (ScatterDims.resultIdx? (s := ⟨1, ![N]⟩) (si := ⟨2, ![E, 1]⟩) (u := ⟨1, ![E]⟩) ⟨[], [0], [0], 1, wf⟩
        (ix1 e) idx = some (ix1 c)) ↔ (idx (ix2 e ⟨0, Nat.one_pos⟩)).toInt = (c.val : Int) := by
    intro e
    have hst : ∀ a, ScatterDims.start (s := ⟨1, ![N]⟩) (si := ⟨2, ![E, 1]⟩) (u := ⟨1, ![E]⟩) ⟨[], [0], [0], 1, wf⟩
        (ix1 e) idx a = (idx (ix2 e ⟨0, Nat.one_pos⟩)).toInt := by
      intro a
      obtain rfl : a = 0 := Subsingleton.elim _ _
      unfold ScatterDims.start
      rw [dif_pos (List.mem_singleton.mpr rfl)]
      have hsi : ∀ p, ScatterDims.siIdx (s := ⟨1, ![N]⟩) (si := ⟨2, ![E, 1]⟩) (u := ⟨1, ![E]⟩) ⟨[], [0], [0], 1, wf⟩
          (ix1 e) ⟨List.idxOf (0 : Fin 1) [0], p⟩ = ix2 e ⟨0, Nat.one_pos⟩ := by
        intro p; funext b; refine Fin.ext ?_
        match b with
        | ⟨0, _⟩ => rfl
        | ⟨1, _⟩ => rfl
      rw [hsi]
    have hwin : ∀ a, ScatterDims.window (s := ⟨1, ![N]⟩) (si := ⟨2, ![E, 1]⟩) (u := ⟨1, ![E]⟩) ⟨[], [0], [0], 1, wf⟩
        (ix1 e) a = 0 := by
      intro a
      obtain rfl : a = 0 := Subsingleton.elim _ _
      unfold ScatterDims.window
      rw [dif_neg (by simp [Shape.kept])]
    have hc := c.isLt
    constructor
    · intro h
      unfold ScatterDims.resultIdx? at h
      split at h
      · rename_i hall
        have h0 := hall 0
        have hc0 : (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val :=
          congrArg Fin.val (congrFun (Option.some.inj h) 0)
        rw [hst, hwin] at h0 hc0
        rw [hsz] at h0
        omega
      · cases h
    · intro hv
      have hall : ∀ a, 0 ≤ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
          ∧ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
            < (((⟨1, ![N]⟩ : Shape).size a : Nat) : Int) := by
        intro a
        rw [hst, hwin]
        obtain rfl : a = 0 := Subsingleton.elim _ _
        rw [hsz]
        omega
      unfold ScatterDims.resultIdx?
      rw [dif_pos hall]
      congr 1
      funext a
      obtain rfl : a = 0 := Subsingleton.elim _ _
      refine Fin.ext ?_
      show (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val
      rw [hst, hwin]
      omega
  refine Finset.sum_nbij' (fun j => (j 0 : Fin E)) (fun e => ix1 e) ?_ ?_ ?_ ?_ ?_
  · intro j hj
    have h2 := (Finset.mem_filter.1 hj).2
    rw [eq_ix1 j] at h2
    exact Finset.mem_filter.2 ⟨Finset.mem_univ _, (key _).1 h2⟩
  · intro e he
    exact Finset.mem_filter.2 ⟨Finset.mem_univ _, (key e).2 (Finset.mem_filter.1 he).2⟩
  · intro j _
    exact (eq_ix1 j).symm
  · intro e _
    rfl
  · intro j _
    exact congrArg upd (eq_ix1 j)

/-- A scatter-add of rows into a matrix `[N, C]` with one row index per update row: element `(c, k)` of the
    result is the operand's element `(c, k)` plus the sum over the update rows `e` whose index word, read
    signed, equals `c` of their element `k`. -/
theorem scatterAdd2_apply {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (c : Fin N) (k : Fin C) :
    Ideal.hostScatterAdd d x idx upd (ix2 c k)
      = x (ix2 c k) + ∑ e ∈ Finset.univ.filter
          (fun e : Fin E => (idx (ix2 e ⟨0, Nat.one_pos⟩)).toInt = (c.val : Int)), upd (ix2 e k) := by
  obtain ⟨uw, iw, sd, iv, wf⟩ := d
  dsimp only at huw hiw hsd hiv
  subst huw hiw hsd hiv
  unfold Ideal.hostScatterAdd
  congr 1
  have hsz0 : ((⟨2, ![N, C]⟩ : Shape).size 0 : Nat) = N := rfl
  have hsz1 : ((⟨2, ![N, C]⟩ : Shape).size 1 : Nat) = C := rfl
  have key : ∀ (e : Fin E) (k' : Fin C),
      (ScatterDims.resultIdx? (⟨[1], [0], [0], 1, wf⟩ : ScatterDims ⟨2, ![N, C]⟩ ⟨2, ![E, 1]⟩ ⟨2, ![E, C]⟩) (ix2 e k') idx = some (ix2 c k))
        ↔ ((idx (ix2 e ⟨0, Nat.one_pos⟩)).toInt = (c.val : Int) ∧ k' = k) := by
    intro e k'
    have hst0 : ScatterDims.start (⟨[1], [0], [0], 1, wf⟩ : ScatterDims ⟨2, ![N, C]⟩ ⟨2, ![E, 1]⟩ ⟨2, ![E, C]⟩) (ix2 e k') idx 0 = (idx (ix2 e ⟨0, Nat.one_pos⟩)).toInt := by
      unfold ScatterDims.start
      rw [dif_pos (List.mem_singleton.mpr rfl)]
      have hsi : ∀ p, ScatterDims.siIdx (⟨[1], [0], [0], 1, wf⟩ : ScatterDims ⟨2, ![N, C]⟩ ⟨2, ![E, 1]⟩ ⟨2, ![E, C]⟩) (ix2 e k') ⟨List.idxOf (0 : Fin 2) [0], p⟩ = ix2 e ⟨0, Nat.one_pos⟩ := by
        intro p; funext b; refine Fin.ext ?_
        match b with
        | ⟨0, _⟩ => rfl
        | ⟨1, _⟩ => rfl
      rw [hsi]
    have hst1 : ScatterDims.start (⟨[1], [0], [0], 1, wf⟩ : ScatterDims ⟨2, ![N, C]⟩ ⟨2, ![E, 1]⟩ ⟨2, ![E, C]⟩) (ix2 e k') idx 1 = 0 := by
      unfold ScatterDims.start
      rw [dif_neg (fun h => absurd (congrArg Fin.val (List.mem_singleton.mp h)) Nat.one_ne_zero)]
    have hwin0 : ScatterDims.window (⟨[1], [0], [0], 1, wf⟩ : ScatterDims ⟨2, ![N, C]⟩ ⟨2, ![E, 1]⟩ ⟨2, ![E, C]⟩) (ix2 e k') 0 = 0 := by
      unfold ScatterDims.window
      rw [dif_neg (by simp [Shape.kept])]
    have hwin1 : ScatterDims.window (⟨[1], [0], [0], 1, wf⟩ : ScatterDims ⟨2, ![N, C]⟩ ⟨2, ![E, 1]⟩ ⟨2, ![E, C]⟩) (ix2 e k') 1 = k'.val := by
      unfold ScatterDims.window
      rw [dif_pos (by simp [Shape.kept])]
      rfl
    have hc := c.isLt
    have hk := k.isLt
    have hk' := k'.isLt
    constructor
    · intro h
      unfold ScatterDims.resultIdx? at h
      split at h
      · rename_i hall
        have h0 := hall 0
        have hc0 : (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val :=
          congrArg Fin.val (congrFun (Option.some.inj h) 0)
        have hc1 : (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k.val :=
          congrArg Fin.val (congrFun (Option.some.inj h) 1)
        rw [hst0, hwin0] at h0 hc0
        rw [hsz0] at h0
        rw [hst1, hwin1] at hc1
        exact ⟨by omega, Fin.ext (by omega)⟩
      · cases h
    · rintro ⟨hv, rfl⟩
      have hall : ∀ a, 0 ≤ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
          ∧ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
            < (((⟨2, ![N, C]⟩ : Shape).size a : Nat) : Int) := by
        intro a
        match a with
        | ⟨0, _⟩ =>
          show 0 ≤ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
            ∧ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
              < (((⟨2, ![N, C]⟩ : Shape).size 0 : Nat) : Int)
          rw [hst0, hwin0, hsz0]
          omega
        | ⟨1, _⟩ =>
          show 0 ≤ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
            ∧ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
              < (((⟨2, ![N, C]⟩ : Shape).size 1 : Nat) : Int)
          rw [hst1, hwin1, hsz1]
          omega
      unfold ScatterDims.resultIdx?
      rw [dif_pos hall]
      congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val
        rw [hst0, hwin0]
        omega
      | ⟨1, _⟩ =>
        show (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k'.val
        rw [hst1, hwin1]
        omega
  have hmem : ∀ j : (⟨2, ![E, C]⟩ : Shape).Idx,
      ScatterDims.resultIdx? (⟨[1], [0], [0], 1, wf⟩ : ScatterDims ⟨2, ![N, C]⟩ ⟨2, ![E, 1]⟩ ⟨2, ![E, C]⟩) j idx = some (ix2 c k)
        → (idx (ix2 (j 0 : Fin E) ⟨0, Nat.one_pos⟩)).toInt = (c.val : Int) ∧ ix2 (j 0 : Fin E) k = j := by
    intro j hj
    rw [eq_ix2 j] at hj
    have h2 := (key _ _).1 hj
    refine ⟨h2.1, ?_⟩
    have h3 : ix2 (j 0 : Fin E) k = ix2 (j 0 : Fin E) (j 1 : Fin C) :=
      congrArg (fun t : Fin C => ix2 (j 0 : Fin E) t) h2.2.symm
    exact h3.trans (eq_ix2 j).symm
  refine Finset.sum_nbij' (fun j => (j 0 : Fin E)) (fun e => ix2 e k) ?_ ?_ ?_ ?_ ?_
  · intro j hj
    exact Finset.mem_filter.2 ⟨Finset.mem_univ _, (hmem j (Finset.mem_filter.1 hj).2).1⟩
  · intro e he
    exact Finset.mem_filter.2 ⟨Finset.mem_univ _, (key e k).2 ⟨(Finset.mem_filter.1 he).2, rfl⟩⟩
  · intro j hj
    exact (hmem j (Finset.mem_filter.1 hj).2).2
  · intro e _
    rfl
  · intro j hj
    exact congrArg upd (hmem j (Finset.mem_filter.1 hj).2).2.symm

/-- A gather from a flat array `[N]` with one start index per result element: result element `e` is the
    operand at the index word of `e`, read signed and clamped into `[0, N - 1]`. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e)
      = x (ix1 ⟨min (idx (ix2 e ⟨0, Nat.one_pos⟩)).toInt.toNat (N - 1), by omega⟩) := by
  obtain ⟨od, cd, ob, sb, sm, iv, ss, wf⟩ := d
  dsimp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ p, GatherDims.siIdx (s := ⟨1, ![N]⟩) (si := ⟨2, ![E, 1]⟩) (t := ⟨1, ![E]⟩)
      ⟨[], [0], [], [], [0], 1, ![1], wf⟩ (ix1 e) ⟨List.idxOf (0 : Fin 1) [0], p⟩ = ix2 e ⟨0, Nat.one_pos⟩ := by
    intro p
    funext b; refine Fin.ext ?_
    match b with
    | ⟨0, _⟩ => rfl
    | ⟨1, _⟩ => rfl
  rw [hsi]
  rfl

/-- A gather of rows from a matrix `[N, C]` with one start index per result row: result element `(e, k)` is
    the operand's element `k` of the row at the index word of `e`, read signed and clamped into `[0, N - 1]`. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k)
      = x (ix2 ⟨min (idx (ix2 e ⟨0, Nat.one_pos⟩)).toInt.toNat (N - 1), by omega⟩ k) := by
  obtain ⟨od, cd, ob, sb, sm, iv, ss, wf⟩ := d
  dsimp only at hod hcd hob hsb hsm hiv hss
  subst hod hcd hob hsb hsm hiv hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ p, GatherDims.siIdx (s := ⟨2, ![N, C]⟩) (si := ⟨2, ![E, 1]⟩) (t := ⟨2, ![E, C]⟩)
        ⟨[1], [0], [], [], [0], 1, ![1, C], wf⟩ (ix2 e k) ⟨List.idxOf (0 : Fin 2) [0], p⟩ = ix2 e ⟨0, Nat.one_pos⟩ := by
      intro p
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Cert.ScatterGather

end
-- ==== Proof.Stages.lean ====
/-
  The host's gather / weight / scatter-add chain is the weighted aggregation.

  A gather of rows with one start index per edge reads the source row (the index word read signed and clamped into
  the node range); a scatter-add of one update row per edge into an all-zero operand adds to node `n` exactly the
  update rows of the edges whose target word, read signed, is `n`. With the update row of edge `e` the source row
  times the edge's weight, the result is `Gnn.agg`.
-/
import proofs.«106510_j32693291057797_2_alg».proof.Proof.Spec
import proofs.«106510_j32693291057797_2_alg».proof.Proof.LibScatterGather

noncomputable section

open scoped BigOperators

namespace Cert.Gnn

open Idealize.ShloMosaic Idealize.ShloMosaic.ValueIdx

/-- A gather of rows from `h` at the start indices `si`, read at edge `e` and channel `k`: the source row's
    channel `k`. -/
theorem gather_rows {α : Type} {N E C : ℕ} (hN : 0 < N)
    (g : GatherDims ⟨2, ![N, C]⟩ ⟨2, ![E, 1]⟩ ⟨2, ![E, C]⟩)
    (hod : g.offsetDims = [1]) (hcd : g.collapsedSliceDims = [0]) (hob : g.operandBatchingDims = [])
    (hsb : g.startIndicesBatchingDims = []) (hsm : g.startIndexMap = [0]) (hiv : g.indexVectorDim = 1)
    (hss : g.sliceSizes = ![1, C])
    (h : (⟨2, ![N, C]⟩ : Shape).Idx → α) (si : I2 E) (e : Fin E) (k : Fin C) :
    Host.gather g h si (ix2 e k) = h (ix2 (srcRow hN si e) k) :=
  Cert.ScatterGather.gather2_apply hN g hod hcd hob hsb hsm hiv hss h si e k

/-- A scatter-add into an all-zero operand `z` at the target indices `di` of updates whose row `e` is the source row
    of `e` times the weight of `e`: the weighted aggregation. -/
theorem scatter_rows {N E C : ℕ} (hN : 0 < N)
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (z : A2 N C) (hz : ∀ i, z i = 0) (si di : I2 E) (ew : A1 E) (h : A2 N C) (upd : A2 E C)
    (hu : ∀ (e : Fin E) (k : Fin C), upd (ix2 e k) = h (ix2 (srcRow hN si e) k) * ew (ix1 e)) :
    Ideal.hostScatterAdd d z di upd = agg hN si di ew h := by
  funext i
  obtain ⟨p, q, rfl⟩ : ∃ (p : Fin N) (q : Fin C), i = ix2 p q := ⟨i 0, i 1, eq_ix2 i⟩
  rw [Cert.ScatterGather.scatterAdd2_apply d huw hiw hsd hiv z di upd p q, hz, agg_ix2]
  refine congrArg (fun t => (0 : EReal) + t) ?_
  exact Finset.sum_congr rfl fun e _ => hu e q

end Cert.Gnn

end
-- ==== Proof.RefValue.lean ====
/-
  The reference program's result is the specification's network that aggregates before the last projection.

  Each of its three layers gathers the source rows, scales each by its edge's weight and scatter-adds them into a zero
  array — the weighted aggregation — and then adds the projected aggregate, the bias row and the projected features;
  the first two layers end in a maximum with zero. The three layers recompute the same two index columns from the edge
  list, so the aggregation is the same operator throughout.
-/
import proofs.«106510_j32693291057797_2_alg».proof.Proof.Gen.ReferenceIdeal.Read
import proofs.«106510_j32693291057797_2_alg».proof.Proof.Spec
import proofs.«106510_j32693291057797_2_alg».proof.Proof.Stages
import proofs.«106510_j32693291057797_2_alg».proof.Proof.LibMatRows

noncomputable section

open scoped BigOperators

namespace Cert.RefValue

open Idealize.ShloMosaic Idealize.ShloMosaic.ValueIdx
open Cert.ReferenceIdeal Cert.ReferenceIdeal.Read Cert.Gnn

/-! ## The three stages, for any operands -/

/-- Gather the source rows of `h`, multiply by a weight array whose row `e` is the weight of edge `e` in every channel,
    scatter-add into an all-zero array: the weighted aggregation of `h`. -/
theorem agg_of_parts {N E C : ℕ} (hN : 0 < N)
    (g : GatherDims ⟨2, ![N, C]⟩ ⟨2, ![E, 1]⟩ ⟨2, ![E, C]⟩)
    (hod : g.offsetDims = [1]) (hcd : g.collapsedSliceDims = [0]) (hob : g.operandBatchingDims = [])
    (hsb : g.startIndicesBatchingDims = []) (hsm : g.startIndexMap = [0]) (hgiv : g.indexVectorDim = 1)
    (hss : g.sliceSizes = ![1, C])
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (z : A2 N C) (hz : ∀ i, z i = 0) (si di : I2 E) (ew : A1 E) (wb : A2 E C)
    (hwb : ∀ (e : Fin E) (k : Fin C), wb (ix2 e k) = ew (ix1 e)) (h : A2 N C) :
    Host.scatterAdd (F := Ideal) (φ := .f32) d z di (mulf (F := Ideal) (φ := .f32) (Host.gather g h si) wb)
      = agg hN si di ew h :=
  scatter_rows hN d huw hiw hsd hiv z hz si di ew h _ (fun e k => by
    show Host.gather g h si (ix2 e k) * wb (ix2 e k) = _
    rw [gather_rows hN g hod hcd hob hsb hsm hgiv hss h si e k, hwb e k])

/-- Project the aggregate, add the bias row, add the projected features, take the maximum with zero: one layer. -/
theorem dense_of_parts {n k j : ℕ} (d : DotDims ⟨2, ![n, k]⟩ ⟨2, ![k, j]⟩ ⟨2, ![n, j]⟩) (hd : LibMatRows.RowsTimesMat d)
    (a x : A2 n k) (Wr : A2 k j) (b : A1 j) (Wo : A2 k j) (bb zz : A2 n j)
    (hbb : ∀ (p : Fin n) (q : Fin j), bb (ix2 p q) = b (ix1 q)) (hzz : ∀ i, zz i = 0) :
    maximumf (F := Ideal) (φ := .f32)
        (addf (F := Ideal) (φ := .f32) (addf (F := Ideal) (φ := .f32) (Host.dotGeneral (F := Ideal) (φ₁ := .f32) (φ₂ := .f32) d none a Wr) bb) (Host.dotGeneral (F := Ideal) (φ₁ := .f32) (φ₂ := .f32) d none x Wo)) zz
      = dense a x Wr b Wo := by
  funext i
  obtain ⟨p, q, rfl⟩ : ∃ (p : Fin n) (q : Fin j), i = ix2 p q := ⟨i 0, i 1, eq_ix2 i⟩
  show max ((Host.dotGeneral (F := Ideal) (φ₁ := .f32) (φ₂ := .f32) d none a Wr (ix2 p q) + bb (ix2 p q)) + Host.dotGeneral (F := Ideal) (φ₁ := .f32) (φ₂ := .f32) d none x Wo (ix2 p q)) (zz (ix2 p q)) = _
  rw [LibMatRows.dotGeneral_rows hd a Wr p q, LibMatRows.dotGeneral_rows hd x Wo p q, hbb p q, hzz, dense_ix2, mm_ix2, mm_ix2]

/-- The last layer: the same without the maximum. -/
theorem last_of_parts {n k j : ℕ} (d : DotDims ⟨2, ![n, k]⟩ ⟨2, ![k, j]⟩ ⟨2, ![n, j]⟩) (hd : LibMatRows.RowsTimesMat d)
    (a x : A2 n k) (Wr : A2 k j) (b : A1 j) (Wo : A2 k j) (bb : A2 n j)
    (hbb : ∀ (p : Fin n) (q : Fin j), bb (ix2 p q) = b (ix1 q)) :
    addf (F := Ideal) (φ := .f32) (addf (F := Ideal) (φ := .f32) (Host.dotGeneral (F := Ideal) (φ₁ := .f32) (φ₂ := .f32) d none a Wr) bb) (Host.dotGeneral (F := Ideal) (φ₁ := .f32) (φ₂ := .f32) d none x Wo)
      = last (mm a Wr) x b Wo := by
  funext i
  obtain ⟨p, q, rfl⟩ : ∃ (p : Fin n) (q : Fin j), i = ix2 p q := ⟨i 0, i 1, eq_ix2 i⟩
  show (Host.dotGeneral (F := Ideal) (φ₁ := .f32) (φ₂ := .f32) d none a Wr (ix2 p q) + bb (ix2 p q)) + Host.dotGeneral (F := Ideal) (φ₁ := .f32) (φ₂ := .f32) d none x Wo (ix2 p q) = _
  rw [LibMatRows.dotGeneral_rows hd a Wr p q, LibMatRows.dotGeneral_rows hd x Wo p q, hbb p q, last_ix2, mm_ix2, mm_ix2]

/-! ## The printed operands -/

/-- The three products' dimension records are plain products. -/
theorem rows1 : LibMatRows.RowsTimesMat dot_S100000x2_S2x128_S100000x128_1_0_0_1_n_n :=
  ⟨rfl, rfl, lhs_main_v17_0, lhs_main_v17_1, rhs_main_v17_0, rhs_main_v17_1⟩
theorem rows2 : LibMatRows.RowsTimesMat dot_S100000x128_S128x128_S100000x128_1_0_0_1_n_n :=
  ⟨rfl, rfl, lhs_main_v37_0, lhs_main_v37_1, rhs_main_v37_0, rhs_main_v37_1⟩
theorem rows3 : LibMatRows.RowsTimesMat dot_S100000x128_S128x3_S100000x3_1_0_0_1_n_n :=
  ⟨rfl, rfl, lhs_main_v57_0, lhs_main_v57_1, rhs_main_v57_0, rhs_main_v57_1⟩

/-- The zero word is the real zero, so the four zero arrays are zero at every index. -/
theorem zero14 (i : S100000x2.Idx) : val_main_v14 (F := Ideal) i = 0 := by
  rw [val_main_v14_apply, val_main_cst_apply]; exact Ideal.ofBits_zero_f32
theorem zero34 (i : S100000x128.Idx) : val_main_v34 (F := Ideal) i = 0 := by
  rw [val_main_v34_apply, val_main_cst_3_apply]; exact Ideal.ofBits_zero_f32
theorem zero54 (i : S100000x128.Idx) : val_main_v54 (F := Ideal) i = 0 := by
  rw [val_main_v54_apply, val_main_cst_6_apply]; exact Ideal.ofBits_zero_f32
theorem zeroRelu0 (i : S100000x128.Idx) : val_main_call0_v0 (F := Ideal) i = 0 := by
  rw [val_main_call0_v0_apply, val_main_call0_cst_apply]; exact Ideal.ofBits_zero_f32
theorem zeroRelu1 (i : S100000x128.Idx) : val_main_call1_v0 (F := Ideal) i = 0 := by
  rw [val_main_call1_v0_apply, val_main_call1_cst_apply]; exact Ideal.ofBits_zero_f32

/-- The broadcast edge weights: row `e` holds the weight of edge `e` in every channel. -/
theorem weight12 (x2 : (⟨S1600000, .f32⟩ : BufTy).Contents (Elt Ideal)) (e : Fin 1600000) (k : Fin 2) :
    val_main_v12 (F := Ideal) x2 (ix2 e k) = x2 (ix1 e) := by
  rw [val_main_v12_apply, val_main_v11_apply]
  exact congrArg x2 (funext fun a => Fin.ext (by match a with | ⟨0, _⟩ => rfl))
theorem weight32 (x2 : (⟨S1600000, .f32⟩ : BufTy).Contents (Elt Ideal)) (e : Fin 1600000) (k : Fin 128) :
    val_main_v32 (F := Ideal) x2 (ix2 e k) = x2 (ix1 e) := by
  rw [val_main_v32_apply, val_main_v31_apply]
  exact congrArg x2 (funext fun a => Fin.ext (by match a with | ⟨0, _⟩ => rfl))
theorem weight52 (x2 : (⟨S1600000, .f32⟩ : BufTy).Contents (Elt Ideal)) (e : Fin 1600000) (k : Fin 128) :
    val_main_v52 (F := Ideal) x2 (ix2 e k) = x2 (ix1 e) := by
  rw [val_main_v52_apply, val_main_v51_apply]
  exact congrArg x2 (funext fun a => Fin.ext (by match a with | ⟨0, _⟩ => rfl))

/-- The broadcast bias rows: column `q` holds the bias of channel `q` in every row. -/
theorem bias19 (x5 : (⟨S128, .f32⟩ : BufTy).Contents (Elt Ideal)) (p : Fin 100000) (q : Fin 128) :
    val_main_v19 (F := Ideal) x5 (ix2 p q) = x5 (ix1 q) := by
  rw [val_main_v19_apply, val_main_v18_apply]
  exact congrArg x5 (funext fun a => Fin.ext (by match a with | ⟨0, _⟩ => rfl))
theorem bias39 (x8 : (⟨S128, .f32⟩ : BufTy).Contents (Elt Ideal)) (p : Fin 100000) (q : Fin 128) :
    val_main_v39 (F := Ideal) x8 (ix2 p q) = x8 (ix1 q) := by
  rw [val_main_v39_apply, val_main_v38_apply]
  exact congrArg x8 (funext fun a => Fin.ext (by match a with | ⟨0, _⟩ => rfl))
theorem bias59 (x11 : (⟨S3, .f32⟩ : BufTy).Contents (Elt Ideal)) (p : Fin 100000) (q : Fin 3) :
    val_main_v59 (F := Ideal) x11 (ix2 p q) = x11 (ix1 q) := by
  rw [val_main_v59_apply, val_main_v58_apply]
  exact congrArg x11 (funext fun a => Fin.ext (by match a with | ⟨0, _⟩ => rfl))

/-- The later layers' index columns are the first layer's: the same operations of the edge list. -/
theorem src29 (x1 : (⟨S2x1600000, .i32⟩ : BufTy).Contents (Elt Ideal)) : val_main_v29 (F := Ideal) x1 = val_main_v9 (F := Ideal) x1 := rfl
theorem src49 (x1 : (⟨S2x1600000, .i32⟩ : BufTy).Contents (Elt Ideal)) : val_main_v49 (F := Ideal) x1 = val_main_v9 (F := Ideal) x1 := rfl
theorem dst35 (x1 : (⟨S2x1600000, .i32⟩ : BufTy).Contents (Elt Ideal)) : val_main_v35 (F := Ideal) x1 = val_main_v15 (F := Ideal) x1 := rfl
theorem dst55 (x1 : (⟨S2x1600000, .i32⟩ : BufTy).Contents (Elt Ideal)) : val_main_v55 (F := Ideal) x1 = val_main_v15 (F := Ideal) x1 := rfl

/-! ## The layers -/

/-- Layer 1's aggregate. -/
theorem agg1 (x0 : (⟨S100000x2, .f32⟩ : BufTy).Contents (Elt Ideal)) (x1 : (⟨S2x1600000, .i32⟩ : BufTy).Contents (Elt Ideal)) (x2 : (⟨S1600000, .f32⟩ : BufTy).Contents (Elt Ideal)) :
    val_main_v16 (F := Ideal) x0 x1 x2 = agg (N := 100000) (E := 1600000) (by norm_num) (val_main_v9 (F := Ideal) x1) (val_main_v15 (F := Ideal) x1) x2 x0 := by
  unfold val_main_v16 val_main_v13 val_main_v10
  exact agg_of_parts _ _ rfl rfl rfl rfl rfl rfl rfl _ rfl rfl rfl rfl _ zero14 _ _ _ _ (weight12 x2) _

/-- Layer 1. -/
theorem dense1 (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) :
    val_main_v23 (F := Ideal) x0 x1 x2 x4 x5 x6 = dense (val_main_v16 (F := Ideal) x0 x1 x2) x0 x4 x5 x6 := by
  unfold val_main_v23 val_main_v22 val_main_v20 val_main_v17 val_main_v21
  exact dense_of_parts _ rows1 _ _ _ _ _ _ _ (bias19 x5) zeroRelu0

/-- Layer 2's aggregate. -/
theorem agg2 (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) :
    val_main_v36 (F := Ideal) x0 x1 x2 x4 x5 x6 = agg (N := 100000) (E := 1600000) (by norm_num) (val_main_v9 (F := Ideal) x1) (val_main_v15 (F := Ideal) x1) x2 (val_main_v23 (F := Ideal) x0 x1 x2 x4 x5 x6) := by
  unfold val_main_v36 val_main_v33 val_main_v30
  rw [src29, dst35]
  exact agg_of_parts _ _ rfl rfl rfl rfl rfl rfl rfl _ rfl rfl rfl rfl _ zero34 _ _ _ _ (weight32 x2) _

/-- Layer 2. -/
theorem dense2 (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v43 (F := Ideal) x0 x1 x2 x4 x5 x6 x7 x8 x9 = dense (val_main_v36 (F := Ideal) x0 x1 x2 x4 x5 x6) (val_main_v23 (F := Ideal) x0 x1 x2 x4 x5 x6) x7 x8 x9 := by
  unfold val_main_v43 val_main_v42 val_main_v40 val_main_v37 val_main_v41
  exact dense_of_parts _ rows2 _ _ _ _ _ _ _ (bias39 x8) zeroRelu1

/-- Layer 3's aggregate. -/
theorem agg3 (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v56 (F := Ideal) x0 x1 x2 x4 x5 x6 x7 x8 x9 = agg (N := 100000) (E := 1600000) (by norm_num) (val_main_v9 (F := Ideal) x1) (val_main_v15 (F := Ideal) x1) x2 (val_main_v43 (F := Ideal) x0 x1 x2 x4 x5 x6 x7 x8 x9) := by
  unfold val_main_v56 val_main_v53 val_main_v50
  rw [src49, dst55]
  exact agg_of_parts _ _ rfl rfl rfl rfl rfl rfl rfl _ rfl rfl rfl rfl _ zero54 _ _ _ _ (weight52 x2) _

/-- Layer 3: the aggregate is projected afterwards. -/
theorem last3 (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x3, .f32⟩ : BufTy).Contents (Elt Ideal)) (x11 : (⟨S3, .f32⟩ : BufTy).Contents (Elt Ideal)) (x12 : (⟨S128x3, .f32⟩ : BufTy).Contents (Elt Ideal)) :
    val_main_v62 (F := Ideal) x0 x1 x2 x4 x5 x6 x7 x8 x9 x10 x11 x12 = last (mm (val_main_v56 (F := Ideal) x0 x1 x2 x4 x5 x6 x7 x8 x9) x10) (val_main_v43 (F := Ideal) x0 x1 x2 x4 x5 x6 x7 x8 x9) x11 x12 := by
  unfold val_main_v62 val_main_v60 val_main_v57 val_main_v61
  exact last_of_parts _ rows3 _ _ _ _ _ _ (bias59 x11)

/-! ## The network -/

/-- The first hidden layer. -/
theorem hidden1_eq (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) :
    val_main_v23 (F := Ideal) x0 x1 x2 x4 x5 x6 = hidden1 (N := 100000) (E := 1600000) (by norm_num) (val_main_v9 (F := Ideal) x1) (val_main_v15 (F := Ideal) x1) x2 x0 x4 x5 x6 := by
  rw [dense1, agg1]; rfl

/-- The second hidden layer. -/
theorem hidden2_eq (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v43 (F := Ideal) x0 x1 x2 x4 x5 x6 x7 x8 x9 = hidden2 (N := 100000) (E := 1600000) (by norm_num) (val_main_v9 (F := Ideal) x1) (val_main_v15 (F := Ideal) x1) x2 x0 x4 x5 x6 x7 x8 x9 := by
  rw [dense2, agg2, hidden1_eq]; rfl

/-- The reference's result is the network that aggregates 128 channels and projects afterwards, of the arguments, with
    the start-index and target-index columns the reference computes from the edge list. -/
theorem result_eq (x0 : (⟨S100000x2, .f32⟩ : BufTy).Contents (Elt Ideal)) (x1 : (⟨S2x1600000, .i32⟩ : BufTy).Contents (Elt Ideal)) (x2 : (⟨S1600000, .f32⟩ : BufTy).Contents (Elt Ideal)) (x4 : (⟨S2x128, .f32⟩ : BufTy).Contents (Elt Ideal)) (x5 : (⟨S128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x3, .f32⟩ : BufTy).Contents (Elt Ideal)) (x11 : (⟨S3, .f32⟩ : BufTy).Contents (Elt Ideal)) (x12 : (⟨S128x3, .f32⟩ : BufTy).Contents (Elt Ideal)) :
    val_main_v62 (F := Ideal) x0 x1 x2 x4 x5 x6 x7 x8 x9 x10 x11 x12
      = outAggregateFirst (N := 100000) (E := 1600000) (by norm_num) (val_main_v9 (F := Ideal) x1) (val_main_v15 (F := Ideal) x1) x2 x0 x4 x5 x6 x7 x8 x9 x10 x11 x12 := by
  rw [last3, agg3, hidden2_eq]; rfl

end Cert.RefValue

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.HostStretches.lean ====
/-
  The idealized kernel's three stretches of host operations, read from any contents `W` of the buffers.

  Each stretch computes the weighted aggregation of one array: it gathers the source rows at the wrapped source words,
  scales each by its edge's weight, and scatter-adds the rows into a zero array at the target words. The first stretch
  also cuts the edge list into its source words and its target words, which the later stretches read back; each
  stretch ends by viewing a bias vector as a one-row matrix. Every buffer a stretch does not write keeps its contents.
-/
import proofs.«106510_j32693291057797_2_alg».proof.Proof.PatchedKernelIdealFrame
import proofs.«106510_j32693291057797_2_alg».proof.Proof.Spec
import proofs.«106510_j32693291057797_2_alg».proof.Proof.Stages
import proofs.«106510_j32693291057797_2_alg».proof.Proof.RefValue
import proofs.«106510_j32693291057797_2_alg».proof.Proof.LibHostBroadcast
import Idealize.ShloMosaic.Lib.ValueLayout

set_option maxRecDepth 16384

noncomputable section

namespace Cert.KernelIdeal.Host

open Idealize.ShloMosaic Idealize.ShloMosaic.TcCoe Idealize.ShloMosaic.ValueIdx Idealize.SL.Sem
open Cert.KernelIdeal Cert.KernelIdeal.Gen Cert.Gnn

/-! ## The index columns -/

/-- The source words: row 0 of the edge list, as a vector. -/
def srcWords (a1 : IVec S2x1600000 32) : IVec S1600000 32 :=
  shapeCast _ (extractStridedSlice S1x1600000 ![0, 0] a1 Facts₀.slices_S2x1600000_S1x1600000_0_0) Facts₀.shapeCasts_S1x1600000_S1600000
/-- The target words: row 1 of the edge list, as a vector. -/
def dstWords (a1 : IVec S2x1600000 32) : IVec S1600000 32 :=
  shapeCast _ (extractStridedSlice S1x1600000 ![1, 0] a1 Facts₀.slices_S2x1600000_S1x1600000_1_0) Facts₀.shapeCasts_S1x1600000_S1600000
/-- The start-index column: each source word, with the node count added when it is negative. -/
def srcCol (v1 : IVec S1600000 32) : IVec S1600000x1 32 :=
  broadcastInDim S1600000x1 ![0] Facts₀.bcast_S1600000_S1600000x1_0
    (select (cmpi .slt v1 (broadcastInDim S1600000 ![] Facts₀.bcast_S_S1600000 (constantI S_ 32 0#32)))
      (addi v1 (broadcastInDim S1600000 ![] Facts₀.bcast_S_S1600000 (constantI S_ 32 100000#32))) v1)
/-- The target-index column. -/
def dstCol (v3 : IVec S1600000 32) : IVec S1600000x1 32 :=
  broadcastInDim S1600000x1 ![0] Facts₀.bcast_S1600000_S1600000x1_0 v3

/-- The reference computes the same two columns from the edge list. -/
theorem srcCol_eq_ref (a1 : IVec S2x1600000 32) :
    srcCol (srcWords a1) = Cert.ReferenceIdeal.Read.val_main_v9 (F := Ideal) a1 := rfl
theorem dstCol_eq_ref (a1 : IVec S2x1600000 32) :
    dstCol (dstWords a1) = Cert.ReferenceIdeal.Read.val_main_v15 (F := Ideal) a1 := rfl

/-! ## The operands of an aggregation -/

/-- The zero word spread over any shape is zero at every index. -/
theorem zero_bcast {S : Shape} (hb : S_.BroadcastsInDim S (![] : Fin 0 → Fin S.rank)) (i : S.Idx) :
    broadcastInDim S ![] hb (constant (F := Ideal) S_ .f32 0x00000000#32) i = 0 := Ideal.ofBits_zero_f32

/-- The edge weights as a column, spread over the channels: row `e` holds the weight of edge `e` in every channel. -/
theorem weight_bcast {E C : ℕ} (ew : A1 E)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2)) (e : Fin E) (k : Fin C) :
    broadcastInDim ⟨2, ![E, C]⟩ (![0, 1] : Fin 2 → Fin 2) h2 (broadcastInDim ⟨2, ![E, 1]⟩ (![0] : Fin 1 → Fin 2) h1 ew) (ix2 e k)
      = ew (ix1 e) :=
  (Cert.LibHostBroadcast.col_to_mat_apply _ h2 e k).trans (Cert.LibHostBroadcast.vec_to_col_apply ew h1 e 0)

variable (W : Valuation τ sig (Elt Ideal))

/-! ## Stretch 0 -/

theorem stretch0_v1 : StableHlo.after (hostOps0 (F := Ideal)) W (Proc.devRef .tc main_v1) = srcWords (W (Proc.devRef .tc main_arg1)) := by
  dsimp only [hostOps0]
  after_results_simp
  rfl

theorem stretch0_v3 : StableHlo.after (hostOps0 (F := Ideal)) W (Proc.devRef .tc main_v3) = dstWords (W (Proc.devRef .tc main_arg1)) := by
  dsimp only [hostOps0]
  after_results_simp
  rfl

theorem stretch0_v16 :
    StableHlo.after (hostOps0 (F := Ideal)) W (Proc.devRef .tc main_v16)
      = agg (N := 100000) (E := 1600000) (by norm_num) (srcCol (srcWords (W (Proc.devRef .tc main_arg1)))) (dstCol (dstWords (W (Proc.devRef .tc main_arg1))))
          (W (Proc.devRef .tc main_arg2)) (W (Proc.devRef .tc main_arg0)) := by
  dsimp only [hostOps0]
  after_results_simp
  exact Cert.RefValue.agg_of_parts _ gather_S100000x2_S1600000x1_S1600000x2_1_0_n_n_0_1_12 rfl rfl rfl rfl rfl rfl rfl
    scatter_S100000x2_S1600000x1_S1600000x2_1_0_0_1 rfl rfl rfl rfl _ (zero_bcast Facts₀.bcast_S_S100000x2)
    (srcCol (srcWords (W (Proc.devRef .tc main_arg1)))) (dstCol (dstWords (W (Proc.devRef .tc main_arg1)))) (W (Proc.devRef .tc main_arg2)) _
    (weight_bcast (W (Proc.devRef .tc main_arg2)) Facts₀.bcast_S1600000_S1600000x1_0 Facts₀.bcast_S1600000x1_S1600000x2_0_1) (W (Proc.devRef .tc main_arg0))

theorem stretch0_v17 (q : Fin 128) :
    (StableHlo.after (hostOps0 (F := Ideal)) W (Proc.devRef .tc main_v17) : FVec Ideal S1x128 .f32) (ix2 (0 : Fin 1) q) = (W (Proc.devRef .tc main_arg5) : FVec Ideal S128 .f32) (ix1 q) := by
  dsimp only [hostOps0]
  after_results_simp
  exact shapeCast_a_1a_apply (W (Proc.devRef .tc main_arg5) : FVec Ideal S128 .f32) Facts₀.shapeCasts_S128_S1x128 0 q

/-- The buffers stretch 0 writes. -/
def written0 : List (Ref sig .tc) :=
  [main_v0, main_v1, main_v2, main_v3, main_c, main_v4, main_v5, main_c_0, main_v6, main_v7, main_v8, main_v9, main_v10, main_v11, main_v12, main_v13, main_cst, main_v14, main_v15, main_v16, main_v17]

theorem writes0_sub : (hostOps0 (F := Ideal)).Forall fun op =>
    op.writes ⊆ ((written0.map (Proc.devRef (τ := τ) .tc)).toFinset) := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩

/-- A buffer stretch 0 does not write keeps its contents. -/
theorem stretch0_keep (r : Ref sig .tc) (hr : r ∉ written0) :
    StableHlo.after (hostOps0 (F := Ideal)) W (Proc.devRef .tc r) = W (Proc.devRef .tc r) :=
  StableHlo.after_of_writes_sub _ W writes0_sub hr

/-! ## Stretch 1 -/

theorem stretch1_v32 :
    StableHlo.after (hostOps1 (F := Ideal)) W (Proc.devRef .tc main_v32)
      = agg (N := 100000) (E := 1600000) (by norm_num) (srcCol (W (Proc.devRef .tc main_v1))) (dstCol (W (Proc.devRef .tc main_v3))) (W (Proc.devRef .tc main_arg2)) (W (Proc.devRef .tc main_v18)) := by
  dsimp only [hostOps1]
  after_results_simp
  exact Cert.RefValue.agg_of_parts _ gather_S100000x128_S1600000x1_S1600000x128_1_0_n_n_0_1_1128 rfl rfl rfl rfl rfl rfl rfl
    scatter_S100000x128_S1600000x1_S1600000x128_1_0_0_1 rfl rfl rfl rfl _ (zero_bcast Facts₀.bcast_S_S100000x128)
    (srcCol (W (Proc.devRef .tc main_v1))) (dstCol (W (Proc.devRef .tc main_v3))) (W (Proc.devRef .tc main_arg2)) _
    (weight_bcast (W (Proc.devRef .tc main_arg2)) Facts₀.bcast_S1600000_S1600000x1_0 Facts₀.bcast_S1600000x1_S1600000x128_0_1) (W (Proc.devRef .tc main_v18))

theorem stretch1_v33 (q : Fin 128) :
    (StableHlo.after (hostOps1 (F := Ideal)) W (Proc.devRef .tc main_v33) : FVec Ideal S1x128 .f32) (ix2 (0 : Fin 1) q) = (W (Proc.devRef .tc main_arg8) : FVec Ideal S128 .f32) (ix1 q) := by
  dsimp only [hostOps1]
  after_results_simp
  exact shapeCast_a_1a_apply (W (Proc.devRef .tc main_arg8) : FVec Ideal S128 .f32) Facts₀.shapeCasts_S128_S1x128 0 q

/-- The buffers stretch 1 writes. -/
def written1 : List (Ref sig .tc) :=
  [main_c_1, main_v19, main_v20, main_c_2, main_v21, main_v22, main_v23, main_v24, main_v25, main_v26, main_v27, main_v28, main_v29, main_cst_3, main_v30, main_v31, main_v32, main_v33]

theorem writes1_sub : (hostOps1 (F := Ideal)).Forall fun op =>
    op.writes ⊆ ((written1.map (Proc.devRef (τ := τ) .tc)).toFinset) := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩

/-- A buffer stretch 1 does not write keeps its contents. -/
theorem stretch1_keep (r : Ref sig .tc) (hr : r ∉ written1) :
    StableHlo.after (hostOps1 (F := Ideal)) W (Proc.devRef .tc r) = W (Proc.devRef .tc r) :=
  StableHlo.after_of_writes_sub _ W writes1_sub hr

/-! ## Stretch 3 -/

theorem stretch3_v48 :
    StableHlo.after (hostOps3 (F := Ideal)) W (Proc.devRef .tc main_v48)
      = agg (N := 100000) (E := 1600000) (by norm_num) (srcCol (W (Proc.devRef .tc main_v1))) (dstCol (W (Proc.devRef .tc main_v3))) (W (Proc.devRef .tc main_arg2)) (W (Proc.devRef .tc main_v35)) := by
  dsimp only [hostOps3]
  after_results_simp
  exact Cert.RefValue.agg_of_parts _ gather_S100000x3_S1600000x1_S1600000x3_1_0_n_n_0_1_13 rfl rfl rfl rfl rfl rfl rfl
    scatter_S100000x3_S1600000x1_S1600000x3_1_0_0_1 rfl rfl rfl rfl _ (zero_bcast Facts₀.bcast_S_S100000x3)
    (srcCol (W (Proc.devRef .tc main_v1))) (dstCol (W (Proc.devRef .tc main_v3))) (W (Proc.devRef .tc main_arg2)) _
    (weight_bcast (W (Proc.devRef .tc main_arg2)) Facts₀.bcast_S1600000_S1600000x1_0 Facts₀.bcast_S1600000x1_S1600000x3_0_1) (W (Proc.devRef .tc main_v35))

theorem stretch3_v49 (q : Fin 3) :
    (StableHlo.after (hostOps3 (F := Ideal)) W (Proc.devRef .tc main_v49) : FVec Ideal S1x3 .f32) (ix2 (0 : Fin 1) q) = (W (Proc.devRef .tc main_arg11) : FVec Ideal S3 .f32) (ix1 q) := by
  dsimp only [hostOps3]
  after_results_simp
  exact shapeCast_a_1a_apply (W (Proc.devRef .tc main_arg11) : FVec Ideal S3 .f32) Facts₀.shapeCasts_S3_S1x3 0 q

/-- The buffers stretch 3 writes. -/
def written3 : List (Ref sig .tc) :=
  [main_c_4, main_v36, main_v37, main_c_5, main_v38, main_v39, main_v40, main_v41, main_v42, main_v43, main_v44, main_v45, main_cst_6, main_v46, main_v47, main_v48, main_v49]

theorem writes3_sub : (hostOps3 (F := Ideal)).Forall fun op =>
    op.writes ⊆ ((written3.map (Proc.devRef (τ := τ) .tc)).toFinset) := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩

/-- A buffer stretch 3 does not write keeps its contents. -/
theorem stretch3_keep (r : Ref sig .tc) (hr : r ∉ written3) :
    StableHlo.after (hostOps3 (F := Ideal)) W (Proc.devRef .tc r) = W (Proc.devRef .tc r) :=
  StableHlo.after_of_writes_sub _ W writes3_sub hr

end Cert.KernelIdeal.Host

end
-- ==== Proof.KernelValue.lean ====
import proofs.«106510_j32693291057797_2_alg».proof.Proof.RegionExits
import proofs.«106510_j32693291057797_2_alg».proof.Proof.HostStretches

set_option maxRecDepth 16384

noncomputable section

/-!
  The kernel's result, through the fold.

  The buffer contents at the segment boundaries are a fold from the launch memory: a stretch of host operations applies
  them, a region replaces its output array by its closed form of the entry contents and leaves every other buffer.
  Walking the fold: the first stretch aggregates the features, the first region leaves the first hidden layer, the
  second stretch aggregates it, the second region leaves the second hidden layer, the third region its projection to
  three channels, the third stretch aggregates the projection, and the fourth region adds the bias and the root term.
  Every other buffer a later segment reads — the edge words, the edge weights, the weight matrices and biases — is
  walked back to the launch memory through the segments that do not write it.
-/

namespace Cert.KernelIdeal.Net

open Idealize.ShloMosaic Idealize.ShloMosaic.TcCoe Idealize.ShloMosaic.ValueIdx Idealize.SL.Sem
open Cert.KernelIdeal Cert.KernelIdeal.Gen
open Cert.Gnn Cert.KernelIdeal.Host

variable (m : (ℓ : Loc nD τ sig) → Buf (Elt Ideal) ℓ) (ρ : Dev nD → PrngReg) (c : Dev nD)

/-- The launch contents of a buffer. -/
abbrev at0 (b : Ref sig .tc) := W0 m ρ c (Proc.devRef .tc b)

/-- The start-index and target-index columns of the launch edge list. -/
abbrev SI := srcCol (srcWords (at0 m ρ c main_arg1))
abbrev DI := dstCol (dstWords (at0 m ρ c main_arg1))

/-- The first and second hidden layers of the launch arguments. -/
abbrev H1 : A2 100000 128 :=
  hidden1 (N := 100000) (E := 1600000) (by norm_num) (SI m ρ c) (DI m ρ c) (at0 m ρ c main_arg2) (at0 m ρ c main_arg0)
    (at0 m ρ c main_arg4) (at0 m ρ c main_arg5) (at0 m ρ c main_arg6)
abbrev H2 : A2 100000 128 :=
  hidden2 (N := 100000) (E := 1600000) (by norm_num) (SI m ρ c) (DI m ρ c) (at0 m ρ c main_arg2) (at0 m ρ c main_arg0)
    (at0 m ρ c main_arg4) (at0 m ρ c main_arg5) (at0 m ρ c main_arg6)
    (at0 m ρ c main_arg7) (at0 m ρ c main_arg8) (at0 m ρ c main_arg9)

/-! ## Buffers no segment so far has written: walked back to the launch memory -/

/-- After the first stretch. -/
theorem w1 (b : Ref sig .tc) (hb : b ∉ written0) : W1 m ρ c (Proc.devRef .tc b) = at0 m ρ c b :=
  stretch0_keep (W0 m ρ c) b hb

/-- After the first region (which writes only the first layer's buffer). -/
theorem w2 (b : Ref sig .tc) (hb : b ∉ written0) (h0 : ∀ w, Pipeline.arrRef spec0 w ≠ b) :
    W2 m ρ c (Proc.devRef .tc b) = at0 m ρ c b :=
  (W2_of_ne m ρ c b h0).trans (w1 m ρ c b hb)

/-- After the second stretch. -/
theorem w3 (b : Ref sig .tc) (hb : b ∉ written0) (h0 : ∀ w, Pipeline.arrRef spec0 w ≠ b) (hb1 : b ∉ written1) :
    W3 m ρ c (Proc.devRef .tc b) = at0 m ρ c b :=
  (stretch1_keep (W2 m ρ c) b hb1).trans (w2 m ρ c b hb h0)

/-- After the second region. -/
theorem w4 (b : Ref sig .tc) (hb : b ∉ written0) (h0 : ∀ w, Pipeline.arrRef spec0 w ≠ b) (hb1 : b ∉ written1)
    (h1 : ∀ w, Pipeline.arrRef spec1 w ≠ b) : W4 m ρ c (Proc.devRef .tc b) = at0 m ρ c b :=
  (W4_of_ne m ρ c b h1).trans (w3 m ρ c b hb h0 hb1)

/-- After the third region. -/
theorem w5 (b : Ref sig .tc) (hb : b ∉ written0) (h0 : ∀ w, Pipeline.arrRef spec0 w ≠ b) (hb1 : b ∉ written1)
    (h1 : ∀ w, Pipeline.arrRef spec1 w ≠ b) (h2 : ∀ w, Pipeline.arrRef spec2 w ≠ b) :
    W5 m ρ c (Proc.devRef .tc b) = at0 m ρ c b :=
  (W5_of_ne m ρ c b h2).trans (w4 m ρ c b hb h0 hb1 h1)

/-- After the third stretch. -/
theorem w6 (b : Ref sig .tc) (hb : b ∉ written0) (h0 : ∀ w, Pipeline.arrRef spec0 w ≠ b) (hb1 : b ∉ written1)
    (h1 : ∀ w, Pipeline.arrRef spec1 w ≠ b) (h2 : ∀ w, Pipeline.arrRef spec2 w ≠ b) (hb3 : b ∉ written3) :
    W6 m ρ c (Proc.devRef .tc b) = at0 m ρ c b :=
  (stretch3_keep (W5 m ρ c) b hb3).trans (w5 m ρ c b hb h0 hb1 h1 h2)

/-! ## The edge words, written once by the first stretch -/

theorem words2 : W2 m ρ c (Proc.devRef .tc main_v1) = srcWords (at0 m ρ c main_arg1)
    ∧ W2 m ρ c (Proc.devRef .tc main_v3) = dstWords (at0 m ρ c main_arg1) :=
  ⟨(W2_of_ne m ρ c main_v1 (by decide)).trans (stretch0_v1 (W0 m ρ c)),
   (W2_of_ne m ρ c main_v3 (by decide)).trans (stretch0_v3 (W0 m ρ c))⟩

theorem words5 : W5 m ρ c (Proc.devRef .tc main_v1) = srcWords (at0 m ρ c main_arg1)
    ∧ W5 m ρ c (Proc.devRef .tc main_v3) = dstWords (at0 m ρ c main_arg1) :=
  ⟨(W5_of_ne m ρ c main_v1 (by decide)).trans ((W4_of_ne m ρ c main_v1 (by decide)).trans
      ((stretch1_keep (W2 m ρ c) main_v1 (by decide)).trans (words2 m ρ c).1)),
   (W5_of_ne m ρ c main_v3 (by decide)).trans ((W4_of_ne m ρ c main_v3 (by decide)).trans
      ((stretch1_keep (W2 m ρ c) main_v3 (by decide)).trans (words2 m ρ c).2))⟩

/-! ## The layers -/

/-- The first region leaves the first hidden layer. -/
theorem layer1 : W2 m ρ c (Proc.devRef .tc main_v18) = H1 m ρ c := by
  rw [exit0]
  show denseRow (StableHlo.after (hostOps0 (F := Ideal)) (W0 m ρ c) (Proc.devRef .tc main_v16))
      (StableHlo.after (hostOps0 (F := Ideal)) (W0 m ρ c) (Proc.devRef .tc main_arg0))
      (StableHlo.after (hostOps0 (F := Ideal)) (W0 m ρ c) (Proc.devRef .tc main_arg4))
      (StableHlo.after (hostOps0 (F := Ideal)) (W0 m ρ c) (Proc.devRef .tc main_v17))
      (StableHlo.after (hostOps0 (F := Ideal)) (W0 m ρ c) (Proc.devRef .tc main_arg6)) = _
  rw [stretch0_v16, stretch0_keep (W0 m ρ c) main_arg0 (by decide), stretch0_keep (W0 m ρ c) main_arg4 (by decide),
    stretch0_keep (W0 m ρ c) main_arg6 (by decide)]
  exact denseRow_eq _ _ _ _ (at0 m ρ c main_arg5) _ (fun q => stretch0_v17 (W0 m ρ c) q)

/-- The second region leaves the second hidden layer. -/
theorem layer2 : W4 m ρ c (Proc.devRef .tc main_v34) = H2 m ρ c := by
  rw [exit1]
  show denseRow (StableHlo.after (hostOps1 (F := Ideal)) (W2 m ρ c) (Proc.devRef .tc main_v32))
      (StableHlo.after (hostOps1 (F := Ideal)) (W2 m ρ c) (Proc.devRef .tc main_v18))
      (StableHlo.after (hostOps1 (F := Ideal)) (W2 m ρ c) (Proc.devRef .tc main_arg7))
      (StableHlo.after (hostOps1 (F := Ideal)) (W2 m ρ c) (Proc.devRef .tc main_v33))
      (StableHlo.after (hostOps1 (F := Ideal)) (W2 m ρ c) (Proc.devRef .tc main_arg9)) = _
  rw [stretch1_v32, stretch1_keep (W2 m ρ c) main_v18 (by decide), stretch1_keep (W2 m ρ c) main_arg7 (by decide),
    stretch1_keep (W2 m ρ c) main_arg9 (by decide), (words2 m ρ c).1, (words2 m ρ c).2, layer1,
    w2 m ρ c main_arg2 (by decide) (by decide), w2 m ρ c main_arg7 (by decide) (by decide), w2 m ρ c main_arg9 (by decide) (by decide)]
  exact denseRow_eq _ _ _ _ (at0 m ρ c main_arg8) _ (fun q =>
    (stretch1_v33 (W2 m ρ c) q).trans (congrFun (w2 m ρ c main_arg8 (by decide) (by decide)) (ix1 q)))

/-- The third region leaves the projection of the second hidden layer, and the layer itself where it was. -/
theorem projected : W5 m ρ c (Proc.devRef .tc main_v35) = mm (H2 m ρ c) (at0 m ρ c main_arg10) := by
  rw [exit2]
  show mm (W4 m ρ c (Proc.devRef .tc main_v34)) (W4 m ρ c (Proc.devRef .tc main_arg10)) = _
  rw [layer2, w4 m ρ c main_arg10 (by decide) (by decide) (by decide) (by decide)]

theorem layer2_kept : W5 m ρ c (Proc.devRef .tc main_v34) = H2 m ρ c := by
  rw [exit2_kept]
  exact layer2 m ρ c

/-- THE RESULT: the network that projects before the last aggregation, of the launch arguments. -/
theorem result_eq : W7 m ρ c (Proc.devRef .tc main_v50)
    = outProjectFirst (N := 100000) (E := 1600000) (by norm_num) (SI m ρ c) (DI m ρ c) (at0 m ρ c main_arg2) (at0 m ρ c main_arg0)
        (at0 m ρ c main_arg4) (at0 m ρ c main_arg5) (at0 m ρ c main_arg6)
        (at0 m ρ c main_arg7) (at0 m ρ c main_arg8) (at0 m ρ c main_arg9)
        (at0 m ρ c main_arg10) (at0 m ρ c main_arg11) (at0 m ρ c main_arg12) := by
  rw [exit3]
  show lastRow (StableHlo.after (hostOps3 (F := Ideal)) (W5 m ρ c) (Proc.devRef .tc main_v48))
      (StableHlo.after (hostOps3 (F := Ideal)) (W5 m ρ c) (Proc.devRef .tc main_v34))
      (StableHlo.after (hostOps3 (F := Ideal)) (W5 m ρ c) (Proc.devRef .tc main_v49))
      (StableHlo.after (hostOps3 (F := Ideal)) (W5 m ρ c) (Proc.devRef .tc main_arg12)) = _
  rw [stretch3_v48, stretch3_keep (W5 m ρ c) main_v34 (by decide), stretch3_keep (W5 m ρ c) main_arg12 (by decide),
    (words5 m ρ c).1, (words5 m ρ c).2, projected, layer2_kept,
    w5 m ρ c main_arg2 (by decide) (by decide) (by decide) (by decide) (by decide),
    w5 m ρ c main_arg12 (by decide) (by decide) (by decide) (by decide) (by decide)]
  exact lastRow_eq _ _ _ (at0 m ρ c main_arg11) _ (fun q =>
    (stretch3_v49 (W5 m ρ c) q).trans (congrFun (w5 m ρ c main_arg11 (by decide) (by decide) (by decide) (by decide) (by decide)) (ix1 q)))

end Cert.KernelIdeal.Net

end
-- ==== Proof.FiniteInputs.lean ====
/-
  The precondition read back. The printed predicate computes, for each of the eleven float arrays x, the conjunction
  over all entries of |x| < +∞, and conjoins the eleven results; the certificate assumes the result is the true word.
  At the extended reals |x| is max x (-x) and the word 0x7F800000 denotes ⊤, so each entry is neither ⊤ nor ⊥: a real.
-/
import proofs.«106510_j32693291057797_2_alg».proof.Defs
import Idealize.ShloMosaic.Lib.ReduceAll
import Idealize.ShloMosaic.Lib.ValueIdx

noncomputable section

namespace Cert.FiniteInputs

open Idealize.ShloMosaic Idealize.SL.Sem
open Cert.Pre_finite_inputs

/-- The rank-zero shape has one index. -/
instance : Subsingleton S_.Idx := ⟨fun a b => funext fun d => d.elim0⟩

/-- The f32 word with exponent all ones and fraction zero denotes +∞. -/
theorem ofBits_inf : Ideal.ofBits .f32 0x7F800000#32 = (⊤ : EReal) := by
  simp [Ideal.ofBits, Ideal.ieee]

/-- An extended real whose absolute value max x (-x) is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ answering the true word makes x a real. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  rw [ofBits_inf] at h'
  unfold Ideal.cmp at h'
  by_contra hn
  simp [hn] at h'

/-- One array, any shape: if the conjunction over all entries of |x| < +∞, started from the true word, is the true
    word, then every entry of x is a real. -/
theorem real_of_all {S : Shape} {axes : List (Fin S.rank)} (x : FVec Ideal S .f32)
    (hb : S_.BroadcastsInDim S (![] : Fin 0 → Fin S.rank)) (hr : S.ReducesTo axes S_) (hu : 0 < S_.numel) (j : S_.Idx)
    (h : Host.reduce IntOp.andi (cmpf .olt (Host.absf x) (broadcastInDim S ![] hb (constant S_ .f32 0x7F800000#32)))
      (constantI S_ 1 1#1) hr hu j = 1#1) (i : S.Idx) : ∃ r : ℝ, x i = (r : EReal) :=
  real_of_cmp (x i) (Host.reduce_andi_all _ _ hr hu j h i)

/-- The precondition at one device's arguments: every entry of each of the eleven float arrays is a real. The printed
    result at its one index is the conjunction, nested to the left, of the eleven per-array conjunctions, in the order
    of the arguments. -/
theorem real_of_fn [Cert.Pre_finite_inputs.Facts]
    (a0 : FVec Ideal S100000x2 .f32) (a1 : IVec S2x1600000 32) (a2 : FVec Ideal S1600000 .f32) (a3 : IVec S100000 32)
    (a4 : FVec Ideal S2x128 .f32) (a5 : FVec Ideal S128 .f32) (a6 : FVec Ideal S2x128 .f32) (a7 : FVec Ideal S128x128 .f32) (a8 : FVec Ideal S128 .f32)
    (a9 : FVec Ideal S128x128 .f32) (a10 : FVec Ideal S128x3 .f32) (a11 : FVec Ideal S3 .f32) (a12 : FVec Ideal S128x3 .f32)
    (h : (Cert.Pre_finite_inputs.fn (F := Ideal) a0 a1 a2 a3 a4 a5 a6 a7 a8 a9 a10 a11 a12) = (fun _ => 1#1)) :
    (∀ i, ∃ r : ℝ, a0 i = (r : EReal))
      ∧ (∀ i, ∃ r : ℝ, a2 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal)) := by
  have e := congrFun h ValueIdx.ix0
  dsimp only [fn, fn_part1, fn_part2, fn_part3] at e
  simp only [Idealize.ShloMosaic.andi, IntOp.andi_eq_one] at e
  obtain ⟨⟨⟨⟨⟨⟨⟨⟨⟨⟨h0, h2⟩, h4⟩, h5⟩, h6⟩, h7⟩, h8⟩, h9⟩, h10⟩, h11⟩, h12⟩ := e
  exact ⟨real_of_all a0 _ _ _ _ h0, real_of_all a2 _ _ _ _ h2, real_of_all a4 _ _ _ _ h4, real_of_all a5 _ _ _ _ h5,
    real_of_all a6 _ _ _ _ h6, real_of_all a7 _ _ _ _ h7, real_of_all a8 _ _ _ _ h8, real_of_all a9 _ _ _ _ h9,
    real_of_all a10 _ _ _ _ h10, real_of_all a11 _ _ _ _ h11, real_of_all a12 _ _ _ _ h12⟩

/-- The same of the launch memory, on every device, under the certificate's precondition. -/
theorem of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal)) :=
  real_of_fn _ _ _ _ _ _ _ _ _ _ _ _ _ (h c)

end Cert.FiniteInputs

end
-- ==== Proof.lean ====
/-
  A three-layer weighted graph convolution on 100000 nodes and 1600000 edges: the kernel against its reference.

  Both programs compute, layer by layer, `relu (A h · W_rel + b + h · W_root)`, where the aggregation `A` adds to
  each node the rows of the source nodes of its incoming edges, each scaled by the edge's weight. The first two layers
  are the same function in both: the kernel's dense part runs block by block on the device, 5000 nodes per block, and
  the blocks tile the arrays. In the last layer the kernel projects the 128 channels to 3 before aggregating, the
  reference afterwards. Aggregation is linear, so the two agree over the reals; the extended reals do not distribute at
  infinities, so the precondition — every float input finite — is used to show every array that reaches the last layer
  real-valued.
-/
import proofs.«106510_j32693291057797_2_alg».proof.Defs
import proofs.«106510_j32693291057797_2_alg».proof.Proof.Gen.Kernel
import proofs.«106510_j32693291057797_2_alg».proof.Proof.Gen.KernelIdeal
import proofs.«106510_j32693291057797_2_alg».proof.Proof.Gen.ReferenceIdeal
import proofs.«106510_j32693291057797_2_alg».proof.Proof.Gen.Pre_finite_inputs
import proofs.«106510_j32693291057797_2_alg».proof.Proof.Gen.ReferenceIdeal.Run
import proofs.«106510_j32693291057797_2_alg».proof.Proof.Gen.ReferenceIdeal.Read
import proofs.«106510_j32693291057797_2_alg».proof.Proof.PatchedKernelFrame
import proofs.«106510_j32693291057797_2_alg».proof.Proof.PatchedKernelIdealFrame
import proofs.«106510_j32693291057797_2_alg».proof.Proof.RunResult
import proofs.«106510_j32693291057797_2_alg».proof.Proof.KernelValue
import proofs.«106510_j32693291057797_2_alg».proof.Proof.RefValue
import proofs.«106510_j32693291057797_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's result is the network that projects before the last aggregation, the reference's the one that
    aggregates first; with finite inputs they are one array. -/
theorem algebraic : Cert.algebraic_KernelIdeal_ReferenceIdeal := by
  intro m ρ m' ρ' hpre hagree
  refine ⟨fun c => Cert.KernelIdeal.Gen.W7 m ρ c (Proc.devRef .tc Cert.KernelIdeal.main_v50), ?_, ?_⟩
  · exact Cert.KernelIdeal.Gen.run_result m ρ
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    obtain ⟨r0, r2, r4, r5, r6, r7, r8, r9, r10, r11, r12⟩ := Cert.FiniteInputs.of_pre m hpre c
    show Cert.ReferenceIdeal.Value.res_main_v62 m' c = Cert.KernelIdeal.Gen.W7 m ρ c (Proc.devRef .tc Cert.KernelIdeal.main_v50)
    rw [Cert.ReferenceIdeal.Read.val_main_v62_eq, Cert.RefValue.result_eq, e0, e1, e2, e4, e5, e6, e7, e8, e9, e10, e11, e12,
      Cert.KernelIdeal.Net.result_eq, ← Cert.KernelIdeal.Host.srcCol_eq_ref, ← Cert.KernelIdeal.Host.dstCol_eq_ref]
    exact (Cert.Gnn.out_eq _ _ _ _ _ r2 r0 r4 r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
